-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S2x524288 : Shape := ⟨2, ![2, 524288]⟩
abbrev S3x128x128 : Shape := ⟨3, ![3, 128, 128]⟩
abbrev S3x128 : Shape := ⟨2, ![3, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S8x4096x128 .f32) (main_arg1 : IVec S2x524288 32) (main_arg2 : FVec F S3x128x128 .f32) (main_arg3 : FVec F S3x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S8x4096x128 : Shape := ⟨3, ![8, 4096, 128]⟩
abbrev S2x524288 : Shape := ⟨2, ![2, 524288]⟩
abbrev S3x128x128 : Shape := ⟨3, ![3, 128, 128]⟩
abbrev S3x128 : Shape := ⟨2, ![3, 128]⟩
abbrev S32768x128 : Shape := ⟨2, ![32768, 128]⟩
abbrev S32768 : Shape := ⟨1, ![32768]⟩
abbrev S1x524288 : Shape := ⟨2, ![1, 524288]⟩
abbrev S524288 : Shape := ⟨1, ![524288]⟩
abbrev S557056 : Shape := ⟨1, ![557056]⟩
abbrev S_ : Shape := ⟨0, ![]⟩
abbrev S557056x1 : Shape := ⟨2, ![557056, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4096x128 : Shape := ⟨2, ![4096, 128]⟩
abbrev S557056x128 : Shape := ⟨2, ![557056, 128]⟩

abbrev nBuf : Space → Nat
  | .hbm => 118
  | .vmem => 36
  | .smem => 0
  | _ => 0

abbrev bufTy : (tb : Table) → Fin (tcTables nBuf tb) → BufTy
  | .hbm, ⟨0, _⟩ => ⟨S8x4096x128, .f32⟩
  | .hbm, ⟨1, _⟩ => ⟨S2x524288, .i32⟩
  | .hbm, ⟨2, _⟩ => ⟨S3x128x128, .f32⟩
  | .hbm, ⟨3, _⟩ => ⟨S3x128, .f32⟩
  | .hbm, ⟨4, _⟩ => ⟨S32768x128, .f32⟩
  | .hbm, ⟨5, _⟩ => ⟨S32768, .i32⟩
  | .hbm, ⟨6, _⟩ => ⟨S1x524288, .i32⟩
  | .hbm, ⟨7, _⟩ => ⟨S524288, .i32⟩
  | .hbm, ⟨8, _⟩ => ⟨S557056, .i32⟩
  | .hbm, ⟨9, _⟩ => ⟨S1x524288, .i32⟩
  | .hbm, ⟨10, _⟩ => ⟨S524288, .i32⟩
  | .hbm, ⟨11, _⟩ => ⟨S557056, .i32⟩
  | .hbm, ⟨12, _⟩ => ⟨S_, .f32⟩
  | .hbm, ⟨13, _⟩ => ⟨S557056, .f32⟩
  | .hbm, ⟨14, _⟩ => ⟨S_, .f32⟩
  | .hbm, ⟨15, _⟩ => ⟨S32768, .f32⟩
  | .hbm, ⟨16, _⟩ => ⟨S557056x1, .i32⟩
  | .hbm, ⟨17, _⟩ => ⟨S32768, .f32⟩
  | .hbm, ⟨18, _⟩ => ⟨S_, .f32⟩
  | .hbm, ⟨19, _⟩ => ⟨S32768, .f32⟩
  | .hbm, ⟨20, _⟩ => ⟨S32768, .i1⟩
  | .hbm, ⟨21, _⟩ => ⟨S_, .f32⟩
  | .hbm, ⟨22, _⟩ => ⟨S32768, .f32⟩
  | .hbm, ⟨23, _⟩ => ⟨S32768, .f32⟩
  | .hbm, ⟨24, _⟩ => ⟨S32768, .f32⟩
  | .hbm, ⟨25, _⟩ => ⟨S_, .f32⟩
  | .hbm, ⟨26, _⟩ => ⟨S_, .f32⟩
  | .hbm, ⟨27, _⟩ => ⟨S32768, .f32⟩
  | .hbm, ⟨28, _⟩ => ⟨S32768, .f32⟩
  | .hbm, ⟨29, _⟩ => ⟨S_, .i32⟩
  | .hbm, ⟨30, _⟩ => ⟨S557056, .i32⟩
  | .hbm, ⟨31, _⟩ => ⟨S557056, .i1⟩
  | .hbm, ⟨32, _⟩ => ⟨S_, .i32⟩
  | .hbm, ⟨33, _⟩ => ⟨S557056, .i32⟩
  | .hbm, ⟨34, _⟩ => ⟨S557056, .i32⟩
  | .hbm, ⟨35, _⟩ => ⟨S557056, .i32⟩
  | .hbm, ⟨36, _⟩ => ⟨S557056x1, .i32⟩
  | .hbm, ⟨37, _⟩ => ⟨S557056, .f32⟩
  | .hbm, ⟨38, _⟩ => ⟨S_, .i32⟩
  | .hbm, ⟨39, _⟩ => ⟨S557056, .i32⟩
  | .hbm, ⟨40, _⟩ => ⟨S557056, .i1⟩
  | .hbm, ⟨41, _⟩ => ⟨S_, .i32⟩
  | .hbm, ⟨42, _⟩ => ⟨S557056, .i32⟩
  | .hbm, ⟨43, _⟩ => ⟨S557056, .i32⟩
  | .hbm, ⟨44, _⟩ => ⟨S557056, .i32⟩
  | .hbm, ⟨45, _⟩ => ⟨S557056x1, .i32⟩
  | .hbm, ⟨46, _⟩ => ⟨S557056, .f32⟩
  | .hbm, ⟨47, _⟩ => ⟨S557056, .f32⟩
  | .hbm, ⟨48, _⟩ => ⟨S1x128x128, .f32⟩
  | .hbm, ⟨49, _⟩ => ⟨S128x128, .f32⟩
  | .hbm, ⟨50, _⟩ => ⟨S1x128, .f32⟩
  | .hbm, ⟨51, _⟩ => ⟨S128, .f32⟩
  | .hbm, ⟨52, _⟩ => ⟨S32768x128, .f32⟩
  | .hbm, ⟨53, _⟩ => ⟨S_, .i32⟩
  | .hbm, ⟨54, _⟩ => ⟨S557056, .i32⟩
  | .hbm, ⟨55, _⟩ => ⟨S557056, .i1⟩
  | .hbm, ⟨56, _⟩ => ⟨S_, .i32⟩
  | .hbm, ⟨57, _⟩ => ⟨S557056, .i32⟩
  | .hbm, ⟨58, _⟩ => ⟨S557056, .i32⟩
  | .hbm, ⟨59, _⟩ => ⟨S557056, .i32⟩
  | .hbm, ⟨60, _⟩ => ⟨S557056x1, .i32⟩
  | .hbm, ⟨61, _⟩ => ⟨S557056x128, .f32⟩
  | .hbm, ⟨62, _⟩ => ⟨S557056x1, .f32⟩
  | .hbm, ⟨63, _⟩ => ⟨S557056x128, .f32⟩
  | .hbm, ⟨64, _⟩ => ⟨S557056x128, .f32⟩
  | .hbm, ⟨65, _⟩ => ⟨S_, .f32⟩
  | .hbm, ⟨66, _⟩ => ⟨S32768x128, .f32⟩
  | .hbm, ⟨67, _⟩ => ⟨S557056x1, .i32⟩
  | .hbm, ⟨68, _⟩ => ⟨S32768x128, .f32⟩
  | .hbm, ⟨69, _⟩ => ⟨S1x128, .f32⟩
  | .hbm, ⟨70, _⟩ => ⟨S32768x128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S32768x128, .f32⟩
  | .hbm, ⟨76, _⟩ => ⟨S_, .i32⟩
  | .hbm, ⟨77, _⟩ => ⟨S557056, .i32⟩
  | .hbm, ⟨78, _⟩ => ⟨S557056, .i1⟩
  | .hbm, ⟨79, _⟩ => ⟨S_, .i32⟩
  | .hbm, ⟨80, _⟩ => ⟨S557056, .i32⟩
  | .hbm, ⟨81, _⟩ => ⟨S557056, .i32⟩
  | .hbm, ⟨82, _⟩ => ⟨S557056, .i32⟩
  | .hbm, ⟨83, _⟩ => ⟨S557056x1, .i32⟩
  | .hbm, ⟨84, _⟩ => ⟨S557056x128, .f32⟩
  | .hbm, ⟨85, _⟩ => ⟨S557056x1, .f32⟩
  | .hbm, ⟨86, _⟩ => ⟨S557056x128, .f32⟩
  | .hbm, ⟨87, _⟩ => ⟨S557056x128, .f32⟩
  | .hbm, ⟨88, _⟩ => ⟨S_, .f32⟩
  | .hbm, ⟨89, _⟩ => ⟨S32768x128, .f32⟩
  | .hbm, ⟨90, _⟩ => ⟨S557056x1, .i32⟩
  | .hbm, ⟨91, _⟩ => ⟨S32768x128, .f32⟩
  | .hbm, ⟨92, _⟩ => ⟨S1x128, .f32⟩
  | .hbm, ⟨93, _⟩ => ⟨S32768x128, .f32⟩
  | .hbm, ⟨94, _⟩ => ⟨S1x128x128, .f32⟩
  | .hbm, ⟨95, _⟩ => ⟨S128x128, .f32⟩
  | .hbm, ⟨96, _⟩ => ⟨S1x128, .f32⟩
  | .hbm, ⟨97, _⟩ => ⟨S128, .f32⟩
  | .hbm, ⟨98, _⟩ => ⟨S32768x128, .f32⟩
  | .hbm, ⟨99, _⟩ => ⟨S_, .i32⟩
  | .hbm, ⟨100, _⟩ => ⟨S557056, .i32⟩
  | .hbm, ⟨101, _⟩ => ⟨S557056, .i1⟩
  | .hbm, ⟨102, _⟩ => ⟨S_, .i32⟩
  | .hbm, ⟨103, _⟩ => ⟨S557056, .i32⟩
  | .hbm, ⟨104, _⟩ => ⟨S557056, .i32⟩
  | .hbm, ⟨105, _⟩ => ⟨S557056, .i32⟩
  | .hbm, ⟨106, _⟩ => ⟨S557056x1, .i32⟩
  | .hbm, ⟨107, _⟩ => ⟨S557056x128, .f32⟩
  | .hbm, ⟨108, _⟩ => ⟨S557056x1, .f32⟩
  | .hbm, ⟨109, _⟩ => ⟨S557056x128, .f32⟩
  | .hbm, ⟨110, _⟩ => ⟨S557056x128, .f32⟩
  | .hbm, ⟨111, _⟩ => ⟨S_, .f32⟩
  | .hbm, ⟨112, _⟩ => ⟨S32768x128, .f32⟩
  | .hbm, ⟨113, _⟩ => ⟨S557056x1, .i32⟩
  | .hbm, ⟨114, _⟩ => ⟨S32768x128, .f32⟩
  | .hbm, ⟨115, _⟩ => ⟨S1x128, .f32⟩
  | .hbm, ⟨116, _⟩ => ⟨S32768x128, .f32⟩
  | .hbm, ⟨117, _⟩ => ⟨S8x4096x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S128x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S128x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S1x128, .f32⟩
  | .local _ .vmem, ⟨34, _⟩ => ⟨S4096x128, .f32⟩
  | .local _ .vmem, ⟨35, _⟩ => ⟨S4096x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_10 : Ref sig .tc := ⟨.hbm, 76, rfl⟩
abbrev main_v58 : Ref sig .tc := ⟨.hbm, 77, rfl⟩
abbrev main_v59 : Ref sig .tc := ⟨.hbm, 78, rfl⟩
abbrev main_c_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_13 : Ref sig .tc := ⟨.hbm, 99, rfl⟩
abbrev main_v78 : Ref sig .tc := ⟨.hbm, 100, rfl⟩
abbrev main_v79 : Ref sig .tc := ⟨.hbm, 101, rfl⟩
abbrev main_c_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S8x4096x128_S32768x128 : S8x4096x128.ShapeCasts S32768x128
  slices_S2x524288_S1x524288_0_0 : S2x524288.Slices ![0, 0] S1x524288
  shapeCasts_S1x524288_S524288 : S1x524288.ShapeCasts S524288
  concatenates_S524288_S32768_S557056_d0 : Shape.Concatenates [S524288, S32768] S557056 0
  slices_S2x524288_S1x524288_1_0 : S2x524288.Slices ![1, 0] S1x524288
  bcast_S_S557056 : S_.BroadcastsInDim S557056 (![] : Fin 0 → Fin S557056.rank)
  bcast_S_S32768 : S_.BroadcastsInDim S32768 (![] : Fin 0 → Fin S32768.rank)
  bcast_S557056_S557056x1_0 : S557056.BroadcastsInDim S557056x1 (![0] : Fin 1 → Fin S557056x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S557056x1_S557056x128_0_1 : S557056x1.BroadcastsInDim S557056x128 (![0, 1] : Fin 2 → Fin S557056x128.rank)
  bcast_S_S32768x128 : S_.BroadcastsInDim S32768x128 (![] : Fin 0 → Fin S32768x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S32768x128_S8x4096x128 : S32768x128.ShapeCasts S8x4096x128
  scatter_S32768_S557056x1_S557056_n_0_0_1_wf : ScatterDims.WF S32768 S557056x1 S557056 [] [0] [0] 1
  gather_S32768_S557056x1_S557056_n_0_n_n_0_1_1_wf : GatherDims.WF S32768 S557056x1 S557056 [] [0] [] [0] [] 1 ![1]
  dot_S4096x128_S128x128_S4096x128_1_0_0_1_n_n_wf : DotDims.WF S4096x128 S128x128 S4096x128 [1] [0] [0] [1] [] []
  gather_S32768x128_S557056x1_S557056x128_1_0_n_n_0_1_1128_wf : GatherDims.WF S32768x128 S557056x1 S557056x128 [1] [0] [] [0] [] 1 ![1, 128]
  scatter_S32768x128_S557056x1_S557056x128_1_0_0_1_wf : ScatterDims.WF S32768x128 S557056x1 S557056x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S32768x128.size a
  hwx0_2 : ∀ i : grid0.Coords, EltTy.bits .f32 = 32 ∨ (Rect.block (s := S32768x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S32768x128.size a
  hwx1_1 : ∀ i : grid1.Coords, EltTy.bits .f32 = 32 ∨ (Rect.block (s := S32768x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S32768x128.size a
  hwx1_3 : ∀ i : grid1.Coords, EltTy.bits .f32 = 32 ∨ (Rect.block (s := S32768x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S32768x128.size a
  hwx2_0 : ∀ i : grid2.Coords, EltTy.bits .f32 = 32 ∨ (Rect.block (s := S32768x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S32768x128.size a
  hwx2_2 : ∀ i : grid2.Coords, EltTy.bits .f32 = 32 ∨ (Rect.block (s := S32768x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S32768x128.size a
  hwx3_0 : ∀ i : grid3.Coords, EltTy.bits .f32 = 32 ∨ (Rect.block (s := S32768x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S32768x128.size a
  hwx3_1 : ∀ i : grid3.Coords, EltTy.bits .f32 = 32 ∨ (Rect.block (s := S32768x128) S4096x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S32768x128.size a
  hwx3_3 : ∀ i : grid3.Coords, EltTy.bits .f32 = 32 ∨ (Rect.block (s := S32768x128) S4096x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S32768x128.size a
  hwx4_0 : ∀ i : grid4.Coords, EltTy.bits .f32 = 32 ∨ (Rect.block (s := S32768x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S32768x128.size a
  hwx4_2 : ∀ i : grid4.Coords, EltTy.bits .f32 = 32 ∨ (Rect.block (s := S32768x128) S4096x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S32768x128.size a
  hwx5_0 : ∀ i : grid5.Coords, EltTy.bits .f32 = 32 ∨ (Rect.block (s := S32768x128) S4096x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S32768x128.size a
  hwx5_1 : ∀ i : grid5.Coords, EltTy.bits .f32 = 32 ∨ (Rect.block (s := S32768x128) S4096x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x128.size a ≤ S32768x128.size a
  hwx5_3 : ∀ i : grid5.Coords, EltTy.bits .f32 = 32 ∨ (Rect.block (s := S32768x128) S4096x128.size (cc5_transform_3 i) (hinb5_3 i)).WholeWords (EltTy.packing .f32)

variable [Facts₀]

def scatter_S32768_S557056x1_S557056_n_0_0_1 : ScatterDims S32768 S557056x1 S557056 where
  updateWindowDims := []
  insertedWindowDims := [0]
  scatterDimsToOperandDims := [0]
  indexVectorDim := 1
  wf := scatter_S32768_S557056x1_S557056_n_0_0_1_wf
def gather_S32768_S557056x1_S557056_n_0_n_n_0_1_1 : GatherDims S32768 S557056x1 S557056 where
  offsetDims := []
  collapsedSliceDims := [0]
  operandBatchingDims := []
  startIndicesBatchingDims := []
  startIndexMap := [0]
  indexVectorDim := 1
  sliceSizes := ![1]
  wf := gather_S32768_S557056x1_S557056_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S32768x128_S557056x1_S557056x128_1_0_n_n_0_1_1128 : GatherDims S32768x128 S557056x1 S557056x128 where
  offsetDims := [1]
  collapsedSliceDims := [0]
  operandBatchingDims := []
  startIndicesBatchingDims := []
  startIndexMap := [0]
  indexVectorDim := 1
  sliceSizes := ![1, 128]
  wf := gather_S32768x128_S557056x1_S557056x128_1_0_n_n_0_1_1128_wf
def scatter_S32768x128_S557056x1_S557056x128_1_0_0_1 : ScatterDims S32768x128 S557056x1 S557056x128 where
  updateWindowDims := [1]
  insertedWindowDims := [0]
  scatterDimsToOperandDims := [0]
  indexVectorDim := 1
  wf := scatter_S32768x128_S557056x1_S557056x128_1_0_0_1_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v72) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S4096x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S4096x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S4096x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S8x4096x128 : Shape := ⟨3, ![8, 4096, 128]⟩
abbrev S2x524288 : Shape := ⟨2, ![2, 524288]⟩
abbrev S3x128x128 : Shape := ⟨3, ![3, 128, 128]⟩
abbrev S3x128 : Shape := ⟨2, ![3, 128]⟩
abbrev S32768x128 : Shape := ⟨2, ![32768, 128]⟩
abbrev S32768 : Shape := ⟨1, ![32768]⟩
abbrev S1x524288 : Shape := ⟨2, ![1, 524288]⟩
abbrev S524288 : Shape := ⟨1, ![524288]⟩
abbrev S557056 : Shape := ⟨1, ![557056]⟩
abbrev S_ : Shape := ⟨0, ![]⟩
abbrev S557056x1 : Shape := ⟨2, ![557056, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S557056x128 : Shape := ⟨2, ![557056, 128]⟩

abbrev nBuf : Space → Nat
  | .hbm => 171
  | .vmem => 0
  | .smem => 0
  | _ => 0

abbrev hbmTy0_0 (i : Nat) : BufTy := match i % 128 with
  | 0 => ⟨S8x4096x128, .f32⟩
  | 1 => ⟨S2x524288, .i32⟩
  | 2 => ⟨S3x128x128, .f32⟩
  | 3 => ⟨S3x128, .f32⟩
  | 4 => ⟨S32768x128, .f32⟩
  | 5 => ⟨S32768, .i32⟩
  | 6 => ⟨S1x524288, .i32⟩
  | 7 => ⟨S524288, .i32⟩
  | 8 => ⟨S557056, .i32⟩
  | 9 => ⟨S1x524288, .i32⟩
  | 10 => ⟨S524288, .i32⟩
  | 11 => ⟨S557056, .i32⟩
  | 12 => ⟨S_, .f32⟩
  | 13 => ⟨S557056, .f32⟩
  | 14 => ⟨S_, .f32⟩
  | 15 => ⟨S32768, .f32⟩
  | 16 => ⟨S557056x1, .i32⟩
  | 17 => ⟨S32768, .f32⟩
  | 18 => ⟨S_, .f32⟩
  | 19 => ⟨S32768, .f32⟩
  | 20 => ⟨S32768, .i1⟩
  | 21 => ⟨S_, .f32⟩
  | 22 => ⟨S32768, .f32⟩
  | 23 => ⟨S32768, .f32⟩
  | 24 => ⟨S32768, .f32⟩
  | 25 => ⟨S_, .f32⟩
  | 26 => ⟨S_, .f32⟩
  | 27 => ⟨S32768, .f32⟩
  | 28 => ⟨S32768, .f32⟩
  | 29 => ⟨S1x128x128, .f32⟩
  | 30 => ⟨S128x128, .f32⟩
  | 31 => ⟨S1x128, .f32⟩
  | 32 => ⟨S128, .f32⟩
  | 33 => ⟨S32768x128, .f32⟩
  | 34 => ⟨S_, .i32⟩
  | 35 => ⟨S557056, .i32⟩
  | 36 => ⟨S557056, .i1⟩
  | 37 => ⟨S_, .i32⟩
  | 38 => ⟨S557056, .i32⟩
  | 39 => ⟨S557056, .i32⟩
  | 40 => ⟨S557056, .i32⟩
  | 41 => ⟨S557056x1, .i32⟩
  | 42 => ⟨S557056, .f32⟩
  | 43 => ⟨S_, .i32⟩
  | 44 => ⟨S557056, .i32⟩
  | 45 => ⟨S557056, .i1⟩
  | 46 => ⟨S_, .i32⟩
  | 47 => ⟨S557056, .i32⟩
  | 48 => ⟨S557056, .i32⟩
  | 49 => ⟨S557056, .i32⟩
  | 50 => ⟨S557056x1, .i32⟩
  | 51 => ⟨S557056, .f32⟩
  | 52 => ⟨S557056, .f32⟩
  | 53 => ⟨S_, .i32⟩
  | 54 => ⟨S557056, .i32⟩
  | 55 => ⟨S557056, .i1⟩
  | 56 => ⟨S_, .i32⟩
  | 57 => ⟨S557056, .i32⟩
  | 58 => ⟨S557056, .i32⟩
  | 59 => ⟨S557056, .i32⟩
  | 60 => ⟨S557056x1, .i32⟩
  | 61 => ⟨S557056x128, .f32⟩
  | 62 => ⟨S557056x1, .f32⟩
  | 63 => ⟨S557056x128, .f32⟩
  | 64 => ⟨S557056x128, .f32⟩
  | 65 => ⟨S_, .f32⟩
  | 66 => ⟨S32768x128, .f32⟩
  | 67 => ⟨S557056x1, .i32⟩
  | 68 => ⟨S32768x128, .f32⟩
  | 69 => ⟨S1x128, .f32⟩
  | 70 => ⟨S32768x128, .f32⟩
  | 71 => ⟨S32768x128, .f32⟩
  | 72 => ⟨S32768x128, .f32⟩
  | 73 => ⟨S_, .f32⟩
  | 74 => ⟨S32768x128, .f32⟩
  | 75 => ⟨S32768x128, .f32⟩
  | 76 => ⟨S1x128x128, .f32⟩
  | 77 => ⟨S128x128, .f32⟩
  | 78 => ⟨S1x128, .f32⟩
  | 79 => ⟨S128, .f32⟩
  | 80 => ⟨S32768x128, .f32⟩
  | 81 => ⟨S_, .i32⟩
  | 82 => ⟨S557056, .i32⟩
  | 83 => ⟨S557056, .i1⟩
  | 84 => ⟨S_, .i32⟩
  | 85 => ⟨S557056, .i32⟩
  | 86 => ⟨S557056, .i32⟩
  | 87 => ⟨S557056, .i32⟩
  | 88 => ⟨S557056x1, .i32⟩
  | 89 => ⟨S557056, .f32⟩
  | 90 => ⟨S_, .i32⟩
  | 91 => ⟨S557056, .i32⟩
  | 92 => ⟨S557056, .i1⟩
  | 93 => ⟨S_, .i32⟩
  | 94 => ⟨S557056, .i32⟩
  | 95 => ⟨S557056, .i32⟩
  | 96 => ⟨S557056, .i32⟩
  | 97 => ⟨S557056x1, .i32⟩
  | 98 => ⟨S557056, .f32⟩
  | 99 => ⟨S557056, .f32⟩
  | 100 => ⟨S_, .i32⟩
  | 101 => ⟨S557056, .i32⟩
  | 102 => ⟨S557056, .i1⟩
  | 103 => ⟨S_, .i32⟩
  | 104 => ⟨S557056, .i32⟩
  | 105 => ⟨S557056, .i32⟩
  | 106 => ⟨S557056, .i32⟩
  | 107 => ⟨S557056x1, .i32⟩
  | 108 => ⟨S557056x128, .f32⟩
  | 109 => ⟨S557056x1, .f32⟩
  | 110 => ⟨S557056x128, .f32⟩
  | 111 => ⟨S557056x128, .f32⟩
  | 112 => ⟨S_, .f32⟩
  | 113 => ⟨S32768x128, .f32⟩
  | 114 => ⟨S557056x1, .i32⟩
  | 115 => ⟨S32768x128, .f32⟩
  | 116 => ⟨S1x128, .f32⟩
  | 117 => ⟨S32768x128, .f32⟩
  | 118 => ⟨S32768x128, .f32⟩
  | 119 => ⟨S32768x128, .f32⟩
  | 120 => ⟨S_, .f32⟩
  | 121 => ⟨S32768x128, .f32⟩
  | 122 => ⟨S32768x128, .f32⟩
  | 123 => ⟨S1x128x128, .f32⟩
  | 124 => ⟨S128x128, .f32⟩
  | 125 => ⟨S1x128, .f32⟩
  | 126 => ⟨S128, .f32⟩
  | 127 => ⟨S32768x128, .f32⟩
  | _ => ⟨S8x4096x128, .f32⟩

abbrev hbmTy0_1 (i : Nat) : BufTy := match i % 128 with
  | 0 => ⟨S_, .i32⟩
  | 1 => ⟨S557056, .i32⟩
  | 2 => ⟨S557056, .i1⟩
  | 3 => ⟨S_, .i32⟩
  | 4 => ⟨S557056, .i32⟩
  | 5 => ⟨S557056, .i32⟩
  | 6 => ⟨S557056, .i32⟩
  | 7 => ⟨S557056x1, .i32⟩
  | 8 => ⟨S557056, .f32⟩
  | 9 => ⟨S_, .i32⟩
  | 10 => ⟨S557056, .i32⟩
  | 11 => ⟨S557056, .i1⟩
  | 12 => ⟨S_, .i32⟩
  | 13 => ⟨S557056, .i32⟩
  | 14 => ⟨S557056, .i32⟩
  | 15 => ⟨S557056, .i32⟩
  | 16 => ⟨S557056x1, .i32⟩
  | 17 => ⟨S557056, .f32⟩
  | 18 => ⟨S557056, .f32⟩
  | 19 => ⟨S_, .i32⟩
  | 20 => ⟨S557056, .i32⟩
  | 21 => ⟨S557056, .i1⟩
  | 22 => ⟨S_, .i32⟩
  | 23 => ⟨S557056, .i32⟩
  | 24 => ⟨S557056, .i32⟩
  | 25 => ⟨S557056, .i32⟩
  | 26 => ⟨S557056x1, .i32⟩
  | 27 => ⟨S557056x128, .f32⟩
  | 28 => ⟨S557056x1, .f32⟩
  | 29 => ⟨S557056x128, .f32⟩
  | 30 => ⟨S557056x128, .f32⟩
  | 31 => ⟨S_, .f32⟩
  | 32 => ⟨S32768x128, .f32⟩
  | 33 => ⟨S557056x1, .i32⟩
  | 34 => ⟨S32768x128, .f32⟩
  | 35 => ⟨S1x128, .f32⟩
  | 36 => ⟨S32768x128, .f32⟩
  | 37 => ⟨S32768x128, .f32⟩
  | 38 => ⟨S32768x128, .f32⟩
  | 39 => ⟨S_, .f32⟩
  | 40 => ⟨S32768x128, .f32⟩
  | 41 => ⟨S32768x128, .f32⟩
  | 42 => ⟨S8x4096x128, .f32⟩
  | _ => ⟨S8x4096x128, .f32⟩

abbrev hbmTy (i : Nat) : BufTy := match i / 128 with
  | 0 => hbmTy0_0 i
  | 1 => hbmTy0_1 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call1_cst : Ref sig .tc := ⟨.hbm, 73, rfl⟩
abbrev main_call1_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_14 : Ref sig .tc := ⟨.hbm, 100, rfl⟩
abbrev main_v76 : Ref sig .tc := ⟨.hbm, 101, rfl⟩
abbrev main_v77 : Ref sig .tc := ⟨.hbm, 102, rfl⟩
abbrev main_c_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call2_cst : Ref sig .tc := ⟨.hbm, 120, rfl⟩
abbrev main_call2_v0 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_c_17 : Ref sig .tc := ⟨.hbm, 128, rfl⟩
abbrev main_v99 : Ref sig .tc := ⟨.hbm, 129, rfl⟩
abbrev main_v100 : Ref sig .tc := ⟨.hbm, 130, rfl⟩
abbrev main_c_18 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_19 : Ref sig .tc := ⟨.hbm, 137, rfl⟩
abbrev main_v106 : Ref sig .tc := ⟨.hbm, 138, rfl⟩
abbrev main_v107 : Ref sig .tc := ⟨.hbm, 139, rfl⟩
abbrev main_c_20 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_21 : Ref sig .tc := ⟨.hbm, 147, rfl⟩
abbrev main_v114 : Ref sig .tc := ⟨.hbm, 148, rfl⟩
abbrev main_v115 : Ref sig .tc := ⟨.hbm, 149, rfl⟩
abbrev main_c_22 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_23 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_call3_cst : Ref sig .tc := ⟨.hbm, 167, rfl⟩
abbrev main_call3_v0 : Ref sig .tc := ⟨.hbm, 168, rfl⟩
abbrev main_v131 : Ref sig .tc := ⟨.hbm, 169, rfl⟩
abbrev main_v132 : Ref sig .tc := ⟨.hbm, 170, rfl⟩

abbrev nD : Nat := 1
abbrev τ : Topo := Topo.v7x

variable {F : FTy → Type} [FloatOps F]

class Facts₀ : Prop where
  shapeCasts_S8x4096x128_S32768x128 : S8x4096x128.ShapeCasts S32768x128
  slices_S2x524288_S1x524288_0_0 : S2x524288.Slices ![0, 0] S1x524288
  shapeCasts_S1x524288_S524288 : S1x524288.ShapeCasts S524288
  concatenates_S524288_S32768_S557056_d0 : Shape.Concatenates [S524288, S32768] S557056 0
  slices_S2x524288_S1x524288_1_0 : S2x524288.Slices ![1, 0] S1x524288
  bcast_S_S557056 : S_.BroadcastsInDim S557056 (![] : Fin 0 → Fin S557056.rank)
  bcast_S_S32768 : S_.BroadcastsInDim S32768 (![] : Fin 0 → Fin S32768.rank)
  bcast_S557056_S557056x1_0 : S557056.BroadcastsInDim S557056x1 (![0] : Fin 1 → Fin S557056x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S557056x1_S557056x128_0_1 : S557056x1.BroadcastsInDim S557056x128 (![0, 1] : Fin 2 → Fin S557056x128.rank)
  bcast_S_S32768x128 : S_.BroadcastsInDim S32768x128 (![] : Fin 0 → Fin S32768x128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S32768x128_S8x4096x128 : S32768x128.ShapeCasts S8x4096x128
  scatter_S32768_S557056x1_S557056_n_0_0_1_wf : ScatterDims.WF S32768 S557056x1 S557056 [] [0] [0] 1
  dot_S32768x128_S128x128_S32768x128_1_0_0_1_n_n_wf : DotDims.WF S32768x128 S128x128 S32768x128 [1] [0] [0] [1] [] []
  gather_S32768_S557056x1_S557056_n_0_n_n_0_1_1_wf : GatherDims.WF S32768 S557056x1 S557056 [] [0] [] [0] [] 1 ![1]
  gather_S32768x128_S557056x1_S557056x128_1_0_n_n_0_1_1128_wf : GatherDims.WF S32768x128 S557056x1 S557056x128 [1] [0] [] [0] [] 1 ![1, 128]
  scatter_S32768x128_S557056x1_S557056x128_1_0_0_1_wf : ScatterDims.WF S32768x128 S557056x1 S557056x128 [1] [0] [0] 1

variable [Facts₀]

def scatter_S32768_S557056x1_S557056_n_0_0_1 : ScatterDims S32768 S557056x1 S557056 where
  updateWindowDims := []
  insertedWindowDims := [0]
  scatterDimsToOperandDims := [0]
  indexVectorDim := 1
  wf := scatter_S32768_S557056x1_S557056_n_0_0_1_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def gather_S32768_S557056x1_S557056_n_0_n_n_0_1_1 : GatherDims S32768 S557056x1 S557056 where
  offsetDims := []
  collapsedSliceDims := [0]
  operandBatchingDims := []
  startIndicesBatchingDims := []
  startIndexMap := [0]
  indexVectorDim := 1
  sliceSizes := ![1]
  wf := gather_S32768_S557056x1_S557056_n_0_n_n_0_1_1_wf
def gather_S32768x128_S557056x1_S557056x128_1_0_n_n_0_1_1128 : GatherDims S32768x128 S557056x1 S557056x128 where
  offsetDims := [1]
  collapsedSliceDims := [0]
  operandBatchingDims := []
  startIndicesBatchingDims := []
  startIndexMap := [0]
  indexVectorDim := 1
  sliceSizes := ![1, 128]
  wf := gather_S32768x128_S557056x1_S557056x128_1_0_n_n_0_1_1128_wf
def scatter_S32768x128_S557056x1_S557056x128_1_0_0_1 : ScatterDims S32768x128 S557056x1 S557056x128 where
  updateWindowDims := [1]
  insertedWindowDims := [0]
  scatterDimsToOperandDims := [0]
  indexVectorDim := 1
  wf := scatter_S32768x128_S557056x1_S557056x128_1_0_0_1_wf

class Facts : Prop extends Facts₀ where

variable [Facts]
-- ==== Proof.KRun.lean ====
/-
  The idealized kernel program's run with its result named: every weakly fair execution ends with the result
  array at the last boundary's contents (the fold of the host stretches and the six regions' write-backs from
  the launch memory) and the argument arrays as launched.
-/
import proofs.«113656_j75110388073003_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_result : θ_run defs (onTc (τ := τ) (main (F := F))) ⟨m, fun _ => 0, ρ⟩ (fun r => ∀ c : Dev nD,
      r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c)⟩)

end Cert.KernelIdeal.Gen

end
-- ==== Proof.Spec.lean ====
/-
  The computation both programs perform, as one function of the four argument arrays.
  The edge list gives source and target node of every edge; every node also gets a self loop.  A node's
  degree is the number of edges that end in it, its weight is 1/sqrt(degree) (zero where the degree is not
  positive), and an edge's coefficient is the product of its two ends' weights.  A layer multiplies the node
  array by the layer's weight matrix, gathers the product's rows at the edges' sources, scales each by the edge's
  coefficient, adds them up at the edges' targets, and returns max(h + (sum + bias), 0).  Three layers are
  applied in turn to the node array reshaped to [32768, 128].  The reference program's result term is this
  function of its arguments, operation for operation.
-/
import proofs.«113656_j75110388073003_1_alg».proof.Proof.RefRun

noncomputable section

namespace Cert.Spec

open Cert.ReferenceIdeal Cert.ReferenceIdeal.Gen Idealize.ShloMosaic Idealize.ShloMosaic.TcCoe Idealize.SL.Sem

variable {F : FTy → Type} [FloatOps F]

/-- The sources of all edges: row 0 of the edge list followed by the self loops 0 … 32767. -/
def rowv (x1 : (⟨S2x524288, .i32⟩ : BufTy).Contents (Elt F)) : (⟨S557056, .i32⟩ : BufTy).Contents (Elt F) :=
  concatenate S557056 0 [⟨S524288, (shapeCast _ (extractStridedSlice S1x524288 ![0, 0] x1 slices_S2x524288_S1x524288_0_0) shapeCasts_S1x524288_S524288)⟩, ⟨S32768, (iotaInDim S32768 32 0)⟩] concatenates_S524288_S32768_S557056_d0

/-- The targets of all edges: row 1 of the edge list followed by the self loops. -/
def colv (x1 : (⟨S2x524288, .i32⟩ : BufTy).Contents (Elt F)) : (⟨S557056, .i32⟩ : BufTy).Contents (Elt F) :=
  concatenate S557056 0 [⟨S524288, (shapeCast _ (extractStridedSlice S1x524288 ![1, 0] x1 slices_S2x524288_S1x524288_1_0) shapeCasts_S1x524288_S524288)⟩, ⟨S32768, (iotaInDim S32768 32 0)⟩] concatenates_S524288_S32768_S557056_d0

/-- A gather's index column: a negative index counts from the end (32768 is added to it). -/
def wrap (v : (⟨S557056, .i32⟩ : BufTy).Contents (Elt F)) : (⟨S557056x1, .i32⟩ : BufTy).Contents (Elt F) :=
  broadcastInDim S557056x1 ![0] bcast_S557056_S557056x1_0 (select (cmpi .slt v (broadcastInDim S557056 ![] bcast_S_S557056 (constantI S_ 32 0#32))) (addi v (broadcastInDim S557056 ![] bcast_S_S557056 (constantI S_ 32 32768#32))) v)

/-- A node's degree: the ones of all edges added up at their targets. -/
def deg (x1 : (⟨S2x524288, .i32⟩ : BufTy).Contents (Elt F)) : (⟨S32768, .f32⟩ : BufTy).Contents (Elt F) :=
  Host.scatterAdd scatter_S32768_S557056x1_S557056_n_0_0_1 (broadcastInDim S32768 ![] bcast_S_S32768 (constant S_ .f32 0x00000000#32)) (broadcastInDim S557056x1 ![0] bcast_S557056_S557056x1_0 (colv (F := F) x1)) (broadcastInDim S557056 ![] bcast_S_S557056 (constant S_ .f32 0x3F800000#32))

/-- A node's weight: rsqrt(max(degree, 1e-12)) where the degree is positive, else zero. -/
def dis (x1 : (⟨S2x524288, .i32⟩ : BufTy).Contents (Elt F)) : (⟨S32768, .f32⟩ : BufTy).Contents (Elt F) :=
  select (cmpf (F := F) .ogt (deg (F := F) x1) (broadcastInDim S32768 ![] bcast_S_S32768 (constant S_ .f32 0x00000000#32))) (Host.rsqrt (maximumf (deg (F := F) x1) (broadcastInDim S32768 ![] bcast_S_S32768 (constant S_ .f32 0x2B8CBCCC#32)))) (broadcastInDim S32768 ![] bcast_S_S32768 (id (constant S_ .f32 0x00000000#32)))

/-- An edge's coefficient: the product of its source's and its target's weight. -/
def norm (x1 : (⟨S2x524288, .i32⟩ : BufTy).Contents (Elt F)) : (⟨S557056, .f32⟩ : BufTy).Contents (Elt F) :=
  mulf (Host.gather gather_S32768_S557056x1_S557056_n_0_n_n_0_1_1 (dis (F := F) x1) (wrap (F := F) (rowv (F := F) x1))) (Host.gather gather_S32768_S557056x1_S557056_n_0_n_n_0_1_1 (dis (F := F) x1) (wrap (F := F) (colv (F := F) x1)))

/-- The aggregation of a node array over the edges: rows gathered at the sources, scaled by the coefficients,
    added up at the targets. -/
def agg (x1 : (⟨S2x524288, .i32⟩ : BufTy).Contents (Elt F)) (hw : (⟨S32768x128, .f32⟩ : BufTy).Contents (Elt F)) : (⟨S32768x128, .f32⟩ : BufTy).Contents (Elt F) :=
  Host.scatterAdd scatter_S32768x128_S557056x1_S557056x128_1_0_0_1 (broadcastInDim S32768x128 ![] bcast_S_S32768x128 (constant S_ .f32 0x00000000#32)) (broadcastInDim S557056x1 ![0] bcast_S557056_S557056x1_0 (colv (F := F) x1)) (mulf (Host.gather gather_S32768x128_S557056x1_S557056x128_1_0_n_n_0_1_1128 hw (wrap (F := F) (rowv (F := F) x1))) (broadcastInDim S557056x128 ![0, 1] bcast_S557056x1_S557056x128_0_1 (broadcastInDim S557056x1 ![0] bcast_S557056_S557056x1_0 (norm (F := F) x1))))

/-- One layer: max(h + (aggregate(h · W) + bias), 0). -/
def layer (x1 : (⟨S2x524288, .i32⟩ : BufTy).Contents (Elt F)) (h : (⟨S32768x128, .f32⟩ : BufTy).Contents (Elt F))
    (W : (⟨S128x128, .f32⟩ : BufTy).Contents (Elt F)) (b : (⟨S128, .f32⟩ : BufTy).Contents (Elt F)) : (⟨S32768x128, .f32⟩ : BufTy).Contents (Elt F) :=
  maximumf (addf h (addf (agg (F := F) x1 (Host.dotGeneral dot_S32768x128_S128x128_S32768x128_1_0_0_1_n_n none h W)) (broadcastInDim S32768x128 ![0, 1] bcast_S1x128_S32768x128_0_1 (broadcastInDim S1x128 ![1] bcast_S128_S1x128_1 b)))) (broadcastInDim S32768x128 ![] bcast_S_S32768x128 (constant S_ .f32 0x00000000#32))

/-- The node array as a [32768, 128] matrix. -/
def h0 (x0 : (⟨S8x4096x128, .f32⟩ : BufTy).Contents (Elt F)) : (⟨S32768x128, .f32⟩ : BufTy).Contents (Elt F) :=
  shapeCast _ x0 shapeCasts_S8x4096x128_S32768x128

/-- The three layers' weight matrices and bias vectors, sliced out of the stacked arguments. -/
def W0 (x2 : (⟨S3x128x128, .f32⟩ : BufTy).Contents (Elt F)) : (⟨S128x128, .f32⟩ : BufTy).Contents (Elt F) :=
  shapeCast _ (extractStridedSlice S1x128x128 ![0, 0, 0] x2 slices_S3x128x128_S1x128x128_0_0_0) shapeCasts_S1x128x128_S128x128
def W1 (x2 : (⟨S3x128x128, .f32⟩ : BufTy).Contents (Elt F)) : (⟨S128x128, .f32⟩ : BufTy).Contents (Elt F) :=
  shapeCast _ (extractStridedSlice S1x128x128 ![1, 0, 0] x2 slices_S3x128x128_S1x128x128_1_0_0) shapeCasts_S1x128x128_S128x128
def W2 (x2 : (⟨S3x128x128, .f32⟩ : BufTy).Contents (Elt F)) : (⟨S128x128, .f32⟩ : BufTy).Contents (Elt F) :=
  shapeCast _ (extractStridedSlice S1x128x128 ![2, 0, 0] x2 slices_S3x128x128_S1x128x128_2_0_0) shapeCasts_S1x128x128_S128x128
def b0 (x3 : (⟨S3x128, .f32⟩ : BufTy).Contents (Elt F)) : (⟨S128, .f32⟩ : BufTy).Contents (Elt F) :=
  shapeCast _ (extractStridedSlice S1x128 ![0, 0] x3 slices_S3x128_S1x128_0_0) shapeCasts_S1x128_S128
def b1 (x3 : (⟨S3x128, .f32⟩ : BufTy).Contents (Elt F)) : (⟨S128, .f32⟩ : BufTy).Contents (Elt F) :=
  shapeCast _ (extractStridedSlice S1x128 ![1, 0] x3 slices_S3x128_S1x128_1_0) shapeCasts_S1x128_S128
def b2 (x3 : (⟨S3x128, .f32⟩ : BufTy).Contents (Elt F)) : (⟨S128, .f32⟩ : BufTy).Contents (Elt F) :=
  shapeCast _ (extractStridedSlice S1x128 ![2, 0] x3 slices_S3x128_S1x128_2_0) shapeCasts_S1x128_S128

/-- The node array after one, two and three layers. -/
def h1 (x0 : (⟨S8x4096x128, .f32⟩ : BufTy).Contents (Elt F)) (x1 : (⟨S2x524288, .i32⟩ : BufTy).Contents (Elt F))
    (x2 : (⟨S3x128x128, .f32⟩ : BufTy).Contents (Elt F)) (x3 : (⟨S3x128, .f32⟩ : BufTy).Contents (Elt F)) : (⟨S32768x128, .f32⟩ : BufTy).Contents (Elt F) :=
  layer (F := F) x1 (h0 (F := F) x0) (W0 (F := F) x2) (b0 (F := F) x3)
def h2 (x0 : (⟨S8x4096x128, .f32⟩ : BufTy).Contents (Elt F)) (x1 : (⟨S2x524288, .i32⟩ : BufTy).Contents (Elt F))
    (x2 : (⟨S3x128x128, .f32⟩ : BufTy).Contents (Elt F)) (x3 : (⟨S3x128, .f32⟩ : BufTy).Contents (Elt F)) : (⟨S32768x128, .f32⟩ : BufTy).Contents (Elt F) :=
  layer (F := F) x1 (h1 (F := F) x0 x1 x2 x3) (W1 (F := F) x2) (b1 (F := F) x3)
def h3 (x0 : (⟨S8x4096x128, .f32⟩ : BufTy).Contents (Elt F)) (x1 : (⟨S2x524288, .i32⟩ : BufTy).Contents (Elt F))
    (x2 : (⟨S3x128x128, .f32⟩ : BufTy).Contents (Elt F)) (x3 : (⟨S3x128, .f32⟩ : BufTy).Contents (Elt F)) : (⟨S32768x128, .f32⟩ : BufTy).Contents (Elt F) :=
  layer (F := F) x1 (h2 (F := F) x0 x1 x2 x3) (W2 (F := F) x2) (b2 (F := F) x3)

/-- The result: the node array after the three layers, reshaped to [8, 4096, 128]. -/
def result (x0 : (⟨S8x4096x128, .f32⟩ : BufTy).Contents (Elt F)) (x1 : (⟨S2x524288, .i32⟩ : BufTy).Contents (Elt F))
    (x2 : (⟨S3x128x128, .f32⟩ : BufTy).Contents (Elt F)) (x3 : (⟨S3x128, .f32⟩ : BufTy).Contents (Elt F)) : (⟨S8x4096x128, .f32⟩ : BufTy).Contents (Elt F) :=
  shapeCast _ (h3 (F := F) x0 x1 x2 x3) shapeCasts_S32768x128_S8x4096x128

set_option maxRecDepth 16384 in
/-- The reference's result term is this function of the launch contents of its arguments. -/
theorem ref_result (m : (ℓ : Loc nD τ sig) → Buf (Elt F) ℓ) (c : Dev nD) :
    Cert.ReferenceIdeal.ValueP.res_main_v132 m c = result (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.ValueP.res_main_v132; rfl

end Cert.Spec

end
-- ==== Proof.Entry.lean ====
/-
  What the kernel program's host operations before the first region leave, read as functions of the argument
  arrays: the node array as a matrix, the sources and targets of all edges (with the self loops), the edges'
  coefficients, and the first layer's weight matrix and bias.  Each is the same chain of operations the
  specification names.
-/
import proofs.«113656_j75110388073003_1_alg».proof.Proof.Gen.KernelIdeal.Frame
import proofs.«113656_j75110388073003_1_alg».proof.Proof.Spec
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem at3_v0 : W3 m ρ c (Proc.devRef .tc main_v0) = Cert.Spec.h0 (F := Ideal) (m ((c.tc : Thread nD τ).loc main_arg0)) := by
  show StableHlo.after hostOps0_2 (StableHlo.after hostOps0_1 (StableHlo.after hostOps0 (W0 m ρ c))) (Proc.devRef .tc main_v0) = _
  after_results
  rfl

theorem at3_v4 : W3 m ρ c (Proc.devRef .tc main_v4) = Cert.Spec.rowv (F := Ideal) (m ((c.tc : Thread nD τ).loc main_arg1)) := by
  show StableHlo.after hostOps0_2 (StableHlo.after hostOps0_1 (StableHlo.after hostOps0 (W0 m ρ c))) (Proc.devRef .tc main_v4) = _
  after_results
  rfl

theorem at3_v7 : W3 m ρ c (Proc.devRef .tc main_v7) = Cert.Spec.colv (F := Ideal) (m ((c.tc : Thread nD τ).loc main_arg1)) := by
  show StableHlo.after hostOps0_2 (StableHlo.after hostOps0_1 (StableHlo.after hostOps0 (W0 m ρ c))) (Proc.devRef .tc main_v7) = _
  after_results
  rfl

theorem at3_v34 : W3 m ρ c (Proc.devRef .tc main_v34) = Cert.Spec.W0 (F := Ideal) (m ((c.tc : Thread nD τ).loc main_arg2)) := by
  show StableHlo.after hostOps0_2 (StableHlo.after hostOps0_1 (StableHlo.after hostOps0 (W0 m ρ c))) (Proc.devRef .tc main_v34) = _
  after_results
  rfl

theorem at3_v36 : W3 m ρ c (Proc.devRef .tc main_v36) = Cert.Spec.b0 (F := Ideal) (m ((c.tc : Thread nD τ).loc main_arg3)) := by
  show StableHlo.after hostOps0_2 (StableHlo.after hostOps0_1 (StableHlo.after hostOps0 (W0 m ρ c))) (Proc.devRef .tc main_v36) = _
  after_results
  rfl

theorem at3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results

theorem at3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results

end Cert.Bridge

end
-- ==== Proof.EntryNorm.lean ====
/-
  The edges' coefficients as the kernel program's host operations before the first region leave them: the
  product of the two gathered node weights, each node weight the reciprocal square root of the node's degree
  where that is positive, zero elsewhere.  The same chain of operations the specification names.
-/
import proofs.«113656_j75110388073003_1_alg».proof.Proof.Gen.KernelIdeal.Frame
import proofs.«113656_j75110388073003_1_alg».proof.Proof.Spec
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 2000000 in
/-- The node weights, after the first two stretches of host operations. -/
theorem n2_v17 : W2 m ρ c (Proc.devRef .tc main_v17) = Cert.Spec.dis (F := Ideal) (m ((c.tc : Thread nD τ).loc main_arg1)) := by
  show StableHlo.after hostOps0_1 (StableHlo.after hostOps0 (W0 m ρ c)) (Proc.devRef .tc main_v17) = _
  after_results
  simp only [cast_eq]
  rfl

/-- The edges' sources and targets, after the first two stretches. -/
theorem n2_v4 : W2 m ρ c (Proc.devRef .tc main_v4) = Cert.Spec.rowv (F := Ideal) (m ((c.tc : Thread nD τ).loc main_arg1)) := by
  show StableHlo.after hostOps0_1 (StableHlo.after hostOps0 (W0 m ρ c)) (Proc.devRef .tc main_v4) = _
  after_results
  rfl

theorem n2_v7 : W2 m ρ c (Proc.devRef .tc main_v7) = Cert.Spec.colv (F := Ideal) (m ((c.tc : Thread nD τ).loc main_arg1)) := by
  show StableHlo.after hostOps0_1 (StableHlo.after hostOps0 (W0 m ρ c)) (Proc.devRef .tc main_v7) = _
  after_results
  rfl

set_option maxHeartbeats 2000000 in
/-- The third stretch, from any contents that hold the node weights and the edges' ends: it gathers the weights at
    the two ends of every edge and multiplies them. -/
theorem norm_of (V2 : Valuation τ sig (Elt Ideal))
    (h17 : V2 (Proc.devRef .tc main_v17) = Cert.Spec.dis (F := Ideal) (m ((c.tc : Thread nD τ).loc main_arg1)))
    (h4 : V2 (Proc.devRef .tc main_v4) = Cert.Spec.rowv (F := Ideal) (m ((c.tc : Thread nD τ).loc main_arg1)))
    (h7 : V2 (Proc.devRef .tc main_v7) = Cert.Spec.colv (F := Ideal) (m ((c.tc : Thread nD τ).loc main_arg1))) :
    StableHlo.after hostOps0_2 V2 (Proc.devRef .tc main_v32) = Cert.Spec.norm (F := Ideal) (m ((c.tc : Thread nD τ).loc main_arg1)) := by
  after_results
  rw [h17, h4, h7]
  rfl

/-- The edges' coefficients at the first region's entry. -/
theorem at3_v32 : W3 m ρ c (Proc.devRef .tc main_v32) = Cert.Spec.norm (F := Ideal) (m ((c.tc : Thread nD τ).loc main_arg1)) :=
  norm_of m c (W2 m ρ c) (n2_v17 m ρ c) (n2_v4 m ρ c) (n2_v7 m ρ c)

end Cert.Bridge

end
-- ==== Proof.Pass.lean ====
/-
  The edge bookkeeping (sources, targets, coefficients) and the stacked weight and bias arguments are written
  once, before the first region, and never again: no later host operation writes them and no region has them
  among its arrays.  So at every later boundary of the kernel program they still hold the same functions of the
  argument arrays.
-/
import proofs.«113656_j75110388073003_1_alg».proof.Proof.Gen.KernelIdeal.Frame
import proofs.«113656_j75110388073003_1_alg».proof.Proof.Spec
import proofs.«113656_j75110388073003_1_alg».proof.Proof.Entry
import proofs.«113656_j75110388073003_1_alg».proof.Proof.EntryNorm
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem at4_v4 : W4 m ρ c (Proc.devRef .tc main_v4) = Cert.Spec.rowv (F := Ideal) (m ((c.tc : Thread nD τ).loc main_arg1)) :=
  (W4_of_ne m ρ c main_v4 (by decide)).trans (at3_v4 m ρ c)
theorem at5_v4 : W5 m ρ c (Proc.devRef .tc main_v4) = Cert.Spec.rowv (F := Ideal) (m ((c.tc : Thread nD τ).loc main_arg1)) := by
  show StableHlo.after hostOps1 (W4 m ρ c) (Proc.devRef .tc main_v4) = _
  after_results
  exact at4_v4 m ρ c
theorem at6_v4 : W6 m ρ c (Proc.devRef .tc main_v4) = Cert.Spec.rowv (F := Ideal) (m ((c.tc : Thread nD τ).loc main_arg1)) :=
  (W6_of_ne m ρ c main_v4 (by decide)).trans (at5_v4 m ρ c)
theorem at7_v4 : W7 m ρ c (Proc.devRef .tc main_v4) = Cert.Spec.rowv (F := Ideal) (m ((c.tc : Thread nD τ).loc main_arg1)) := by
  show StableHlo.after hostOps2 (W6 m ρ c) (Proc.devRef .tc main_v4) = _
  after_results
  exact at6_v4 m ρ c
theorem at8_v4 : W8 m ρ c (Proc.devRef .tc main_v4) = Cert.Spec.rowv (F := Ideal) (m ((c.tc : Thread nD τ).loc main_arg1)) :=
  (W8_of_ne m ρ c main_v4 (by decide)).trans (at7_v4 m ρ c)
theorem at9_v4 : W9 m ρ c (Proc.devRef .tc main_v4) = Cert.Spec.rowv (F := Ideal) (m ((c.tc : Thread nD τ).loc main_arg1)) := by
  show StableHlo.after hostOps3 (W8 m ρ c) (Proc.devRef .tc main_v4) = _
  after_results
  exact at8_v4 m ρ c
theorem at10_v4 : W10 m ρ c (Proc.devRef .tc main_v4) = Cert.Spec.rowv (F := Ideal) (m ((c.tc : Thread nD τ).loc main_arg1)) :=
  (W10_of_ne m ρ c main_v4 (by decide)).trans (at9_v4 m ρ c)
theorem at11_v4 : W11 m ρ c (Proc.devRef .tc main_v4) = Cert.Spec.rowv (F := Ideal) (m ((c.tc : Thread nD τ).loc main_arg1)) := by
  show StableHlo.after hostOps4 (W10 m ρ c) (Proc.devRef .tc main_v4) = _
  after_results
  exact at10_v4 m ρ c
theorem at12_v4 : W12 m ρ c (Proc.devRef .tc main_v4) = Cert.Spec.rowv (F := Ideal) (m ((c.tc : Thread nD τ).loc main_arg1)) :=
  (W12_of_ne m ρ c main_v4 (by decide)).trans (at11_v4 m ρ c)

theorem at4_v7 : W4 m ρ c (Proc.devRef .tc main_v7) = Cert.Spec.colv (F := Ideal) (m ((c.tc : Thread nD τ).loc main_arg1)) :=
  (W4_of_ne m ρ c main_v7 (by decide)).trans (at3_v7 m ρ c)
theorem at5_v7 : W5 m ρ c (Proc.devRef .tc main_v7) = Cert.Spec.colv (F := Ideal) (m ((c.tc : Thread nD τ).loc main_arg1)) := by
  show StableHlo.after hostOps1 (W4 m ρ c) (Proc.devRef .tc main_v7) = _
  after_results
  exact at4_v7 m ρ c
theorem at6_v7 : W6 m ρ c (Proc.devRef .tc main_v7) = Cert.Spec.colv (F := Ideal) (m ((c.tc : Thread nD τ).loc main_arg1)) :=
  (W6_of_ne m ρ c main_v7 (by decide)).trans (at5_v7 m ρ c)
theorem at7_v7 : W7 m ρ c (Proc.devRef .tc main_v7) = Cert.Spec.colv (F := Ideal) (m ((c.tc : Thread nD τ).loc main_arg1)) := by
  show StableHlo.after hostOps2 (W6 m ρ c) (Proc.devRef .tc main_v7) = _
  after_results
  exact at6_v7 m ρ c
theorem at8_v7 : W8 m ρ c (Proc.devRef .tc main_v7) = Cert.Spec.colv (F := Ideal) (m ((c.tc : Thread nD τ).loc main_arg1)) :=
  (W8_of_ne m ρ c main_v7 (by decide)).trans (at7_v7 m ρ c)
theorem at9_v7 : W9 m ρ c (Proc.devRef .tc main_v7) = Cert.Spec.colv (F := Ideal) (m ((c.tc : Thread nD τ).loc main_arg1)) := by
  show StableHlo.after hostOps3 (W8 m ρ c) (Proc.devRef .tc main_v7) = _
  after_results
  exact at8_v7 m ρ c
theorem at10_v7 : W10 m ρ c (Proc.devRef .tc main_v7) = Cert.Spec.colv (F := Ideal) (m ((c.tc : Thread nD τ).loc main_arg1)) :=
  (W10_of_ne m ρ c main_v7 (by decide)).trans (at9_v7 m ρ c)
theorem at11_v7 : W11 m ρ c (Proc.devRef .tc main_v7) = Cert.Spec.colv (F := Ideal) (m ((c.tc : Thread nD τ).loc main_arg1)) := by
  show StableHlo.after hostOps4 (W10 m ρ c) (Proc.devRef .tc main_v7) = _
  after_results
  exact at10_v7 m ρ c
theorem at12_v7 : W12 m ρ c (Proc.devRef .tc main_v7) = Cert.Spec.colv (F := Ideal) (m ((c.tc : Thread nD τ).loc main_arg1)) :=
  (W12_of_ne m ρ c main_v7 (by decide)).trans (at11_v7 m ρ c)

theorem at4_v32 : W4 m ρ c (Proc.devRef .tc main_v32) = Cert.Spec.norm (F := Ideal) (m ((c.tc : Thread nD τ).loc main_arg1)) :=
  (W4_of_ne m ρ c main_v32 (by decide)).trans (at3_v32 m ρ c)
theorem at5_v32 : W5 m ρ c (Proc.devRef .tc main_v32) = Cert.Spec.norm (F := Ideal) (m ((c.tc : Thread nD τ).loc main_arg1)) := by
  show StableHlo.after hostOps1 (W4 m ρ c) (Proc.devRef .tc main_v32) = _
  after_results
  exact at4_v32 m ρ c
theorem at6_v32 : W6 m ρ c (Proc.devRef .tc main_v32) = Cert.Spec.norm (F := Ideal) (m ((c.tc : Thread nD τ).loc main_arg1)) :=
  (W6_of_ne m ρ c main_v32 (by decide)).trans (at5_v32 m ρ c)
theorem at7_v32 : W7 m ρ c (Proc.devRef .tc main_v32) = Cert.Spec.norm (F := Ideal) (m ((c.tc : Thread nD τ).loc main_arg1)) := by
  show StableHlo.after hostOps2 (W6 m ρ c) (Proc.devRef .tc main_v32) = _
  after_results
  exact at6_v32 m ρ c
theorem at8_v32 : W8 m ρ c (Proc.devRef .tc main_v32) = Cert.Spec.norm (F := Ideal) (m ((c.tc : Thread nD τ).loc main_arg1)) :=
  (W8_of_ne m ρ c main_v32 (by decide)).trans (at7_v32 m ρ c)
theorem at9_v32 : W9 m ρ c (Proc.devRef .tc main_v32) = Cert.Spec.norm (F := Ideal) (m ((c.tc : Thread nD τ).loc main_arg1)) := by
  show StableHlo.after hostOps3 (W8 m ρ c) (Proc.devRef .tc main_v32) = _
  after_results
  exact at8_v32 m ρ c
theorem at10_v32 : W10 m ρ c (Proc.devRef .tc main_v32) = Cert.Spec.norm (F := Ideal) (m ((c.tc : Thread nD τ).loc main_arg1)) :=
  (W10_of_ne m ρ c main_v32 (by decide)).trans (at9_v32 m ρ c)
theorem at11_v32 : W11 m ρ c (Proc.devRef .tc main_v32) = Cert.Spec.norm (F := Ideal) (m ((c.tc : Thread nD τ).loc main_arg1)) := by
  show StableHlo.after hostOps4 (W10 m ρ c) (Proc.devRef .tc main_v32) = _
  after_results
  exact at10_v32 m ρ c
theorem at12_v32 : W12 m ρ c (Proc.devRef .tc main_v32) = Cert.Spec.norm (F := Ideal) (m ((c.tc : Thread nD τ).loc main_arg1)) :=
  (W12_of_ne m ρ c main_v32 (by decide)).trans (at11_v32 m ρ c)

theorem at4_arg2 : W4 m ρ c (Proc.devRef .tc main_arg2) = (m ((c.tc : Thread nD τ).loc main_arg2)) :=
  (W4_of_ne m ρ c main_arg2 (by decide)).trans (at3_arg2 m ρ c)
theorem at5_arg2 : W5 m ρ c (Proc.devRef .tc main_arg2) = (m ((c.tc : Thread nD τ).loc main_arg2)) := by
  show StableHlo.after hostOps1 (W4 m ρ c) (Proc.devRef .tc main_arg2) = _
  after_results
  exact at4_arg2 m ρ c
theorem at6_arg2 : W6 m ρ c (Proc.devRef .tc main_arg2) = (m ((c.tc : Thread nD τ).loc main_arg2)) :=
  (W6_of_ne m ρ c main_arg2 (by decide)).trans (at5_arg2 m ρ c)
theorem at7_arg2 : W7 m ρ c (Proc.devRef .tc main_arg2) = (m ((c.tc : Thread nD τ).loc main_arg2)) := by
  show StableHlo.after hostOps2 (W6 m ρ c) (Proc.devRef .tc main_arg2) = _
  after_results
  exact at6_arg2 m ρ c
theorem at8_arg2 : W8 m ρ c (Proc.devRef .tc main_arg2) = (m ((c.tc : Thread nD τ).loc main_arg2)) :=
  (W8_of_ne m ρ c main_arg2 (by decide)).trans (at7_arg2 m ρ c)
theorem at9_arg2 : W9 m ρ c (Proc.devRef .tc main_arg2) = (m ((c.tc : Thread nD τ).loc main_arg2)) := by
  show StableHlo.after hostOps3 (W8 m ρ c) (Proc.devRef .tc main_arg2) = _
  after_results
  exact at8_arg2 m ρ c
theorem at10_arg2 : W10 m ρ c (Proc.devRef .tc main_arg2) = (m ((c.tc : Thread nD τ).loc main_arg2)) :=
  (W10_of_ne m ρ c main_arg2 (by decide)).trans (at9_arg2 m ρ c)
theorem at11_arg2 : W11 m ρ c (Proc.devRef .tc main_arg2) = (m ((c.tc : Thread nD τ).loc main_arg2)) := by
  show StableHlo.after hostOps4 (W10 m ρ c) (Proc.devRef .tc main_arg2) = _
  after_results
  exact at10_arg2 m ρ c
theorem at12_arg2 : W12 m ρ c (Proc.devRef .tc main_arg2) = (m ((c.tc : Thread nD τ).loc main_arg2)) :=
  (W12_of_ne m ρ c main_arg2 (by decide)).trans (at11_arg2 m ρ c)

theorem at4_arg3 : W4 m ρ c (Proc.devRef .tc main_arg3) = (m ((c.tc : Thread nD τ).loc main_arg3)) :=
  (W4_of_ne m ρ c main_arg3 (by decide)).trans (at3_arg3 m ρ c)
theorem at5_arg3 : W5 m ρ c (Proc.devRef .tc main_arg3) = (m ((c.tc : Thread nD τ).loc main_arg3)) := by
  show StableHlo.after hostOps1 (W4 m ρ c) (Proc.devRef .tc main_arg3) = _
  after_results
  exact at4_arg3 m ρ c
theorem at6_arg3 : W6 m ρ c (Proc.devRef .tc main_arg3) = (m ((c.tc : Thread nD τ).loc main_arg3)) :=
  (W6_of_ne m ρ c main_arg3 (by decide)).trans (at5_arg3 m ρ c)
theorem at7_arg3 : W7 m ρ c (Proc.devRef .tc main_arg3) = (m ((c.tc : Thread nD τ).loc main_arg3)) := by
  show StableHlo.after hostOps2 (W6 m ρ c) (Proc.devRef .tc main_arg3) = _
  after_results
  exact at6_arg3 m ρ c
theorem at8_arg3 : W8 m ρ c (Proc.devRef .tc main_arg3) = (m ((c.tc : Thread nD τ).loc main_arg3)) :=
  (W8_of_ne m ρ c main_arg3 (by decide)).trans (at7_arg3 m ρ c)
theorem at9_arg3 : W9 m ρ c (Proc.devRef .tc main_arg3) = (m ((c.tc : Thread nD τ).loc main_arg3)) := by
  show StableHlo.after hostOps3 (W8 m ρ c) (Proc.devRef .tc main_arg3) = _
  after_results
  exact at8_arg3 m ρ c
theorem at10_arg3 : W10 m ρ c (Proc.devRef .tc main_arg3) = (m ((c.tc : Thread nD τ).loc main_arg3)) :=
  (W10_of_ne m ρ c main_arg3 (by decide)).trans (at9_arg3 m ρ c)
theorem at11_arg3 : W11 m ρ c (Proc.devRef .tc main_arg3) = (m ((c.tc : Thread nD τ).loc main_arg3)) := by
  show StableHlo.after hostOps4 (W10 m ρ c) (Proc.devRef .tc main_arg3) = _
  after_results
  exact at10_arg3 m ρ c
theorem at12_arg3 : W12 m ρ c (Proc.devRef .tc main_arg3) = (m ((c.tc : Thread nD τ).loc main_arg3)) :=
  (W12_of_ne m ρ c main_arg3 (by decide)).trans (at11_arg3 m ρ c)

end Cert.Bridge

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Payloads.lean ====
/-
  What the two kernel bodies compute, read at the ideal values.
  The dense-transform body casts its two loaded blocks to bf16 (the identity on extended reals) and multiplies
  them into a zero accumulator: the block's matrix product.  The residual body adds the node block, the
  aggregated block and the bias row broadcast over the rows, and takes the maximum with zero.
-/
import proofs.«113656_j75110388073003_1_alg».proof.Proof.Gen.KernelIdeal.Skeleton
import proofs.«113656_j75110388073003_1_alg».proof.Proof.LibMatmul
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen

/-- The dense-transform body's stored value is the matrix product of its two loaded blocks. -/
theorem mm_pay (v0 : Vec Ideal S4096x128 .f32) (v3 : Vec Ideal S128x128 .f32) :
    k0_pay1 (F := Ideal) v0 v3 = Cert.LibMatmul.MM v0 v3 := by
  unfold k0_pay1
  simp only [shapeCast_self]
  exact Cert.LibMatmul.matmul_zero_eq dot_S4096x128_S128x128_S4096x128_1_0_0_1_n_n rfl rfl rfl rfl rfl rfl none _ _

theorem mm_pay2 (v0 : Vec Ideal S4096x128 .f32) (v3 : Vec Ideal S128x128 .f32) :
    k2_pay1 (F := Ideal) v0 v3 = Cert.LibMatmul.MM v0 v3 := mm_pay v0 v3

theorem mm_pay4 (v0 : Vec Ideal S4096x128 .f32) (v3 : Vec Ideal S128x128 .f32) :
    k4_pay1 (F := Ideal) v0 v3 = Cert.LibMatmul.MM v0 v3 := mm_pay v0 v3

/-- The residual body's stored value at row r, column q: max((h + a) + b, 0) with the bias read at its one row. -/
theorem res_pay (b : Vec Ideal S1x128 .f32) (h a : Vec Ideal S4096x128 .f32) (r : Fin 4096) (q : Fin 128) :
    k1_pay1 (F := Ideal) b h a (ix2 r q) = max ((h (ix2 r q) + a (ix2 r q)) + b (ix2 (0 : Fin 1) q)) 0 := by
  unfold k1_pay1
  simp only [shapeCast_self]
  show max ((h (ix2 r q) + a (ix2 r q)) + broadcastTo S4096x128 b broadcasts_S1x128_S4096x128 (ix2 r q)) (Ideal.ofBits .f32 0x00000000#32) = _
  rw [broadcastTo_1b_ab_apply, Ideal.ofBits_zero_f32]

/-- The residual step on whole arrays: at row r, column q, max((h + a) + b(0, q), 0). -/
def RES (h a : (⟨2, ![32768, 128]⟩ : Shape).Idx → EReal) (b : (⟨2, ![1, 128]⟩ : Shape).Idx → EReal) : (⟨2, ![32768, 128]⟩ : Shape).Idx → EReal :=
  fun i => max ((h i + a i) + b (ix2 (0 : Fin 1) (i 1))) 0

theorem res_pay3 (b : Vec Ideal S1x128 .f32) (h a : Vec Ideal S4096x128 .f32) (r : Fin 4096) (q : Fin 128) :
    k3_pay1 (F := Ideal) b h a (ix2 r q) = max ((h (ix2 r q) + a (ix2 r q)) + b (ix2 (0 : Fin 1) q)) 0 := res_pay b h a r q

theorem res_pay5 (b : Vec Ideal S1x128 .f32) (h a : Vec Ideal S4096x128 .f32) (r : Fin 4096) (q : Fin 128) :
    k5_pay1 (F := Ideal) b h a (ix2 r q) = max ((h (ix2 r q) + a (ix2 r q)) + b (ix2 (0 : Fin 1) q)) 0 := res_pay b h a r q

end Cert.Bridge

end
-- ==== Proof.Mm4.lean ====
/-
  The dense-transform region, read as a whole array: after its eight points the output array holds the matrix
  product of the node array (as the region finds it) with the layer's weight matrix.  Point t loads rows
  4096·t … 4096·t + 4095 of the node array and the whole weight matrix, and writes back the same rows of the
  output; row r of the product depends only on row r of the left factor, so each written block is the block of
  the whole product, and the eight blocks tile the array.  The node array and the weight matrix are only read.
-/
import proofs.«113656_j75110388073003_1_alg».proof.Proof.Gen.KernelIdeal.Frame
import proofs.«113656_j75110388073003_1_alg».proof.Proof.Payloads

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz_mm4 : (![0, 0] : Fin 2 → Nat) = fun _ => 0 := funext fun a => by fin_cases a <;> rfl

/-- The printed index maps over the grid: the node window and the output window sit at block row t, the weight
    window at block (0, 0). -/
theorem idx_mm4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem noflush4_0 : ∀ t : Fin cfg4.N, (cfg4.win 0).flush t = false :=
  (by decide +kernel : ∀ t : Fin grid4.N, win4_0.flush t = false)

/-- The node array and the weight matrix as the region finds them, as arrays of extended reals. -/
abbrev nodes4 (c : Dev nD) : S32768x128.Idx → EReal := V c main_v72
abbrev weights4 (c : Dev nD) : S128x128.Idx → EReal := V c main_v74

/-- What point t writes back is block t of the whole matrix product. -/
theorem flushed_mm4 (c : Dev nD) (t : Fin cfg4.N) :
    (dat4 V c).flushed 2 t = ((cfg4.win 2).blk t).view.read (Elt Ideal) (Cert.LibMatmul.MM (V c main_v72) (V c main_v74)) := by
  show (cfg4.win 2).cut (grid4.coords t) ((dat4 V c).after 2 t) = _
  rw [after4_2]
  unfold out4_2
  rw [View.canon_unit_zero hz_mm4]
  simp only [View.ld_unit_zero (S := S4096x128) hz_mm4, View.ld_unit_zero (S := S128x128) hz_mm4]
  rw [mm_pay4]
  obtain ⟨e0, e1, e2, e3, e4, e5⟩ := idx_mm4 t
  funext j
  show ∑ k : Fin 128, nodes4 V c (((cfg4.win 0).blk t).view.emb (ix2 (j 0) k)) * weights4 V c (((cfg4.win 1).blk t).view.emb (ix2 k (j 1)))
     = ∑ k : Fin 128, nodes4 V c (ix2 ((((cfg4.win 2).blk t).view.emb j) 0) k) * weights4 V c (ix2 k ((((cfg4.win 2).blk t).view.emb j) 1))
  refine Finset.sum_congr rfl fun k _ => ?_
  have h0 : ((cfg4.win 0).blk t).view.emb (ix2 (j 0) k) = ix2 ((((cfg4.win 2).blk t).view.emb j) 0) k := by
    funext a; apply Fin.ext
    match a with
    | ⟨0, _⟩ => show win4_0.index t (0 : Fin 2) * 4096 + 1 * (j 0).val = win4_2.index t (0 : Fin 2) * 4096 + 1 * (j 0).val; omega
    | ⟨1, _⟩ => show win4_0.index t (1 : Fin 2) * 128 + 1 * k.val = k.val; omega
  have h1 : ((cfg4.win 1).blk t).view.emb (ix2 k (j 1)) = ix2 k ((((cfg4.win 2).blk t).view.emb j) 1) := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [h0, h1]
  rfl

/-- An index of the output array is in point t's block iff each coordinate is in the block's range. -/
theorem mem_mm4 (t : Fin cfg4.N) (i : S32768x128.Idx) :
    i ∈ ((cfg4.win 2).blk t).view.set ↔ ∀ a : Fin 2, win4_2.index t a * S4096x128.size a ≤ (i a).val ∧ (i a).val < win4_2.index t a * S4096x128.size a + S4096x128.size a := by
  show i ∈ ((View.whole main_v77).slice (win4_2.rect t)).set ↔ _
  rw [View.set_slice_whole, Rect.mem_set_unit]
  exact Iff.rfl

/-- Row r of the output is in the block of point r / 4096. -/
theorem cover_mm4 (i : S32768x128.Idx) : ∃ t : Fin cfg4.N, (cfg4.win 2).flush t = true ∧ i ∈ ((cfg4.win 2).blk t).view.set := by
  have hi0 : (i 0).val < 32768 := (i 0).isLt
  have hi1 : (i 1).val < 128 := (i 1).isLt
  have hN : cfg4.N = 8 := N_4
  let t : Fin cfg4.N := ⟨(i 0).val / 4096, by rw [hN]; omega⟩
  obtain ⟨e0, e1, e2, e3, e4, e5⟩ := idx_mm4 t
  have e4' : win4_2.index t (0 : Fin 2) = (i 0).val / 4096 := e4
  refine ⟨t, flush4_2 t, ?_⟩
  rw [mem_mm4]
  intro a
  match a with
  | ⟨0, _⟩ => show win4_2.index t (0 : Fin 2) * 4096 ≤ (i 0).val ∧ (i 0).val < win4_2.index t (0 : Fin 2) * 4096 + 4096; omega
  | ⟨1, _⟩ => show win4_2.index t (1 : Fin 2) * 128 ≤ (i 1).val ∧ (i 1).val < win4_2.index t (1 : Fin 2) * 128 + 128; omega

/-- The output array after the region: the matrix product of the node array and the weight matrix. -/
theorem arr_mm4 (c : Dev nD) : (dat4 V c).arrAt 2 cfg4.N = Cert.LibMatmul.MM (V c main_v72) (V c main_v74) :=
  (dat4 V c).arrAt_eq_of_cover 2 _ (fun t _ => flushed_mm4 V c t) cover_mm4

/-- The node array is only read: it ends as the region found it. -/
theorem arr_in4 (c : Dev nD) : (dat4 V c).arrAt 0 cfg4.N = V c main_v72 :=
  funext fun i => (dat4 V c).arrAt_apply_of_forall_not_mem 0 cfg4.N i fun t _ hf => absurd hf (by rw [noflush4_0 t]; decide)

end Cert.Bridge

end
-- ==== Proof.Res5.lean ====
/-
  The residual region, read as a whole array: after its eight points the output array holds, at row r and
  column q, max((h(r, q) + a(r, q)) + b(0, q), 0), where h is the node array, a the aggregated array and b the
  bias row as the region finds them.  Point t loads rows 4096·t … 4096·t + 4095 of h and of a and the one bias
  row, and writes back the same rows of the output; the value at an entry depends only on the same entry of h
  and a and on the bias at its column, so each written block is the block of the whole-array function, and the
  eight blocks tile the array.
-/
import proofs.«113656_j75110388073003_1_alg».proof.Proof.Gen.KernelIdeal.Frame
import proofs.«113656_j75110388073003_1_alg».proof.Proof.Payloads

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz_res5 : (![0, 0] : Fin 2 → Nat) = fun _ => 0 := funext fun a => by fin_cases a <;> rfl

/-- The printed index maps over the grid: the node, aggregate and output windows sit at block row t, the bias
    window at block (0, 0). -/
theorem idx_res5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The three arrays the region reads, as the region finds them, as arrays of extended reals. -/
abbrev nodes5 (c : Dev nD) : S32768x128.Idx → EReal := V c main_v72
abbrev aggs5 (c : Dev nD) : S32768x128.Idx → EReal := V c main_v90
abbrev bias5 (c : Dev nD) : S1x128.Idx → EReal := V c main_v91

/-- What point t writes back is block t of the whole-array function. -/
theorem flushed_res5 (c : Dev nD) (t : Fin cfg5.N) :
    (dat5 V c).flushed 3 t = ((cfg5.win 3).blk t).view.read (Elt Ideal) (RES (nodes5 V c) (aggs5 V c) (bias5 V c)) := by
  show (cfg5.win 3).cut (grid5.coords t) ((dat5 V c).after 3 t) = _
  rw [after5_3]
  unfold out5_3
  rw [View.canon_unit_zero hz_res5]
  simp only [View.ld_unit_zero (S := S4096x128) hz_res5, View.ld_unit_zero (S := S1x128) hz_res5]
  obtain ⟨e0, e1, e2, e3, e4, e5, e6, e7⟩ := idx_res5 t
  funext j
  obtain ⟨p, q, rfl⟩ : ∃ (p : Fin 4096) (q : Fin 128), j = ix2 p q := ⟨j 0, j 1, eq_ix2 j⟩
  show k5_pay1 (F := Ideal) (iblk5 V c 2 t) (iblk5 V c 0 t) (iblk5 V c 1 t) (ix2 p q) = RES (nodes5 V c) (aggs5 V c) (bias5 V c) (((cfg5.win 3).blk t).view.emb (ix2 p q))
  rw [res_pay5]
  show max ((nodes5 V c (((cfg5.win 0).blk t).view.emb (ix2 p q)) + aggs5 V c (((cfg5.win 1).blk t).view.emb (ix2 p q))) + bias5 V c (((cfg5.win 2).blk t).view.emb (ix2 (0 : Fin 1) q))) 0
     = max ((nodes5 V c (((cfg5.win 3).blk t).view.emb (ix2 p q)) + aggs5 V c (((cfg5.win 3).blk t).view.emb (ix2 p q))) + bias5 V c (ix2 (0 : Fin 1) ((((cfg5.win 3).blk t).view.emb (ix2 p q)) 1))) 0
  have h0 : ((cfg5.win 0).blk t).view.emb (ix2 p q) = ((cfg5.win 3).blk t).view.emb (ix2 p q) := by
    funext a; apply Fin.ext
    match a with
    | ⟨0, _⟩ => show win5_0.index t (0 : Fin 2) * 4096 + 1 * p.val = win5_3.index t (0 : Fin 2) * 4096 + 1 * p.val; omega
    | ⟨1, _⟩ => show win5_0.index t (1 : Fin 2) * 128 + 1 * q.val = win5_3.index t (1 : Fin 2) * 128 + 1 * q.val; omega
  have h1 : ((cfg5.win 1).blk t).view.emb (ix2 p q) = ((cfg5.win 3).blk t).view.emb (ix2 p q) := by
    funext a; apply Fin.ext
    match a with
    | ⟨0, _⟩ => show win5_1.index t (0 : Fin 2) * 4096 + 1 * p.val = win5_3.index t (0 : Fin 2) * 4096 + 1 * p.val; omega
    | ⟨1, _⟩ => show win5_1.index t (1 : Fin 2) * 128 + 1 * q.val = win5_3.index t (1 : Fin 2) * 128 + 1 * q.val; omega
  have h2 : ((cfg5.win 2).blk t).view.emb (ix2 (0 : Fin 1) q) = ix2 (0 : Fin 1) ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  rw [h0, h1, h2]
  rfl

/-- An index of the output array is in point t's block iff each coordinate is in the block's range. -/
theorem mem_res5 (t : Fin cfg5.N) (i : S32768x128.Idx) :
    i ∈ ((cfg5.win 3).blk t).view.set ↔ ∀ a : Fin 2, win5_3.index t a * S4096x128.size a ≤ (i a).val ∧ (i a).val < win5_3.index t a * S4096x128.size a + S4096x128.size a := by
  show i ∈ ((View.whole main_v92).slice (win5_3.rect t)).set ↔ _
  rw [View.set_slice_whole, Rect.mem_set_unit]
  exact Iff.rfl

/-- Row r of the output is in the block of point r / 4096. -/
theorem cover_res5 (i : S32768x128.Idx) : ∃ t : Fin cfg5.N, (cfg5.win 3).flush t = true ∧ i ∈ ((cfg5.win 3).blk t).view.set := by
  have hi0 : (i 0).val < 32768 := (i 0).isLt
  have hi1 : (i 1).val < 128 := (i 1).isLt
  have hN : cfg5.N = 8 := N_5
  let t : Fin cfg5.N := ⟨(i 0).val / 4096, by rw [hN]; omega⟩
  obtain ⟨e0, e1, e2, e3, e4, e5, e6, e7⟩ := idx_res5 t
  have e6' : win5_3.index t (0 : Fin 2) = (i 0).val / 4096 := e6
  refine ⟨t, flush5_3 t, ?_⟩
  rw [mem_res5]
  intro a
  match a with
  | ⟨0, _⟩ => show win5_3.index t (0 : Fin 2) * 4096 ≤ (i 0).val ∧ (i 0).val < win5_3.index t (0 : Fin 2) * 4096 + 4096; omega
  | ⟨1, _⟩ => show win5_3.index t (1 : Fin 2) * 128 ≤ (i 1).val ∧ (i 1).val < win5_3.index t (1 : Fin 2) * 128 + 128; omega

/-- The output array after the region. -/
theorem arr_res5 (c : Dev nD) : (dat5 V c).arrAt 3 cfg5.N = RES (nodes5 V c) (aggs5 V c) (bias5 V c) :=
  (dat5 V c).arrAt_eq_of_cover 3 _ (fun t _ => flushed_res5 V c t) cover_res5

end Cert.Bridge

end
-- ==== Proof.LibCast.lean ====
/-
  Two reshapes read at an index, as functions: an array of shape [a] reshaped to the row shape [1, a] reads,
  at (u, j), its entry j; reshaped to the column shape [a, 1] it reads, at (r, u), its entry r. Stated for any
  proof of the reshape's shape condition, so that either program's own fact can be passed.
-/
import Idealize.ShloMosaic.Lib.ValueLayout

namespace Cert.LibCast

open Idealize.ShloMosaic Idealize.ShloMosaic.ValueIdx

variable {α : Type}

/-- An [a] array reshaped to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array reshaped to the row shape [1, a], as a function of the row index. -/
theorem shapeCast_row {a : ℕ} (s : (⟨1, ![a]⟩ : Shape).Idx → α) (h : (⟨1, ![a]⟩ : Shape).ShapeCasts ⟨2, ![1, a]⟩) :
    shapeCast ⟨2, ![1, a]⟩ s h = fun i => s (ix1 (i 1)) := by
  funext i
  exact (congrArg (shapeCast ⟨2, ![1, a]⟩ s h) (eq_ix2 i)).trans (shapeCast_a_1a_apply s h (i 0) (i 1))

/-- An [a] array reshaped to the column shape [a, 1], as a function of the column index. -/
theorem shapeCast_col {a : ℕ} (d : (⟨1, ![a]⟩ : Shape).Idx → α) (h : (⟨1, ![a]⟩ : Shape).ShapeCasts ⟨2, ![a, 1]⟩) :
    shapeCast ⟨2, ![a, 1]⟩ d h = fun i => d (ix1 (i 0)) := by
  funext i
  exact (congrArg (shapeCast ⟨2, ![a, 1]⟩ d h) (eq_ix2 i)).trans (shapeCast_a_a1_apply d h (i 0) (i 1))

end Cert.LibCast
-- ==== Proof.LayerLaw.lean ====
/-
  The law that joins the two programs' layers.  The kernel program computes a layer as
  max((h + a) + b, 0) with a the aggregate of the blockwise matrix product and b the bias reshaped to one row;
  the reference computes max(h + (a + b'), 0) with a the aggregate of the host's matrix product and b' the bias
  broadcast over the rows.  The two matrix products are the same sums, the two readings of the bias are the
  same entry, and addition of extended reals is associative (with no finiteness needed), so the two are one
  function.
-/
import proofs.«113656_j75110388073003_1_alg».proof.Proof.Spec
import proofs.«113656_j75110388073003_1_alg».proof.Proof.Payloads
import proofs.«113656_j75110388073003_1_alg».proof.Proof.LibCast
import proofs.«113656_j75110388073003_1_alg».proof.Proof.LibMatmul
import Idealize.ShloMosaic.Lib.ValueLayout
import Idealize.ShloMosaic.Lib.Pipeline.Value

noncomputable section

namespace Cert.Bridge

open Cert.ReferenceIdeal Cert.ReferenceIdeal.Gen Idealize.ShloMosaic Idealize.ShloMosaic.ValueIdx

/-- The host's matrix product is the matrix product. -/
theorem dot_eq_MM (h : FVec Ideal S32768x128 .f32) (W : FVec Ideal S128x128 .f32) :
    Host.dotGeneral (F := Ideal) dot_S32768x128_S128x128_S32768x128_1_0_0_1_n_n none h W = Cert.LibMatmul.MM h W :=
  Cert.LibMatmul.dotGeneral_eq dot_S32768x128_S128x128_S32768x128_1_0_0_1_n_n rfl rfl rfl rfl rfl rfl none .single h W

/-- The bias broadcast to one row and then over all rows reads, at (p, q), the bias at q. -/
theorem bias_rows (b : (⟨S128, .f32⟩ : BufTy).Contents (Elt Ideal)) (p : Fin 32768) (q : Fin 128) :
    broadcastInDim S32768x128 ![0, 1] bcast_S1x128_S32768x128_0_1 (broadcastInDim S1x128 ![1] bcast_S128_S1x128_1 b) (ix2 p q) = b (ix1 q) := by
  rw [broadcastInDim_apply ![0, 1] bcast_S1x128_S32768x128_0_1 _ (ix2 p q) (ix2 (0 : Fin 1) q) (fun a => by
    match a with
    | ⟨0, _⟩ => rfl
    | ⟨1, _⟩ => rfl)]
  exact broadcastInDim_apply ![1] bcast_S128_S1x128_1 b (ix2 (0 : Fin 1) q) (ix1 q) (fun a => by
    match a with
    | ⟨0, _⟩ => rfl)

/-- The residual step over the aggregate of the matrix product, the bias given as a one-row array, is the layer. -/
theorem res_layer (x1 : (⟨S2x524288, .i32⟩ : BufTy).Contents (Elt Ideal)) (h : (⟨S32768x128, .f32⟩ : BufTy).Contents (Elt Ideal))
    (W : (⟨S128x128, .f32⟩ : BufTy).Contents (Elt Ideal)) (b : (⟨S128, .f32⟩ : BufTy).Contents (Elt Ideal)) (hc : S128.ShapeCasts S1x128) :
    RES h (Cert.Spec.agg (F := Ideal) x1 (Cert.LibMatmul.MM h W)) (shapeCast S1x128 b hc) = Cert.Spec.layer (F := Ideal) x1 h W b := by
  unfold Cert.Spec.layer
  rw [dot_eq_MM]
  generalize Cert.Spec.agg (F := Ideal) x1 (Cert.LibMatmul.MM h W) = A
  funext i
  obtain ⟨p, q, rfl⟩ : ∃ (p : Fin 32768) (q : Fin 128), i = ix2 p q := ⟨i 0, i 1, eq_ix2 i⟩
  show max ((h (ix2 p q) + A (ix2 p q)) + shapeCast S1x128 b hc (ix2 (0 : Fin 1) q)) 0
    = max (h (ix2 p q) + (A (ix2 p q) + broadcastInDim S32768x128 ![0, 1] bcast_S1x128_S32768x128_0_1 (broadcastInDim S1x128 ![1] bcast_S128_S1x128_1 b) (ix2 p q))) (Ideal.ofBits .f32 0x00000000#32)
  rw [shapeCast_a_1a_apply, bias_rows, Ideal.ofBits_zero_f32, add_assoc]

end Cert.Bridge

end
-- ==== Proof.Mm2.lean ====
/-
  The dense-transform region, read as a whole array: after its eight points the output array holds the matrix
  product of the node array (as the region finds it) with the layer's weight matrix.  Point t loads rows
  4096·t … 4096·t + 4095 of the node array and the whole weight matrix, and writes back the same rows of the
  output; row r of the product depends only on row r of the left factor, so each written block is the block of
  the whole product, and the eight blocks tile the array.  The node array and the weight matrix are only read.
-/
import proofs.«113656_j75110388073003_1_alg».proof.Proof.Gen.KernelIdeal.Frame
import proofs.«113656_j75110388073003_1_alg».proof.Proof.Payloads

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz_mm2 : (![0, 0] : Fin 2 → Nat) = fun _ => 0 := funext fun a => by fin_cases a <;> rfl

/-- The printed index maps over the grid: the node window and the output window sit at block row t, the weight
    window at block (0, 0). -/
theorem idx_mm2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem noflush2_0 : ∀ t : Fin cfg2.N, (cfg2.win 0).flush t = false :=
  (by decide +kernel : ∀ t : Fin grid2.N, win2_0.flush t = false)

/-- The node array and the weight matrix as the region finds them, as arrays of extended reals. -/
abbrev nodes2 (c : Dev nD) : S32768x128.Idx → EReal := V c main_v52
abbrev weights2 (c : Dev nD) : S128x128.Idx → EReal := V c main_v54

/-- What point t writes back is block t of the whole matrix product. -/
theorem flushed_mm2 (c : Dev nD) (t : Fin cfg2.N) :
    (dat2 V c).flushed 2 t = ((cfg2.win 2).blk t).view.read (Elt Ideal) (Cert.LibMatmul.MM (V c main_v52) (V c main_v54)) := by
  show (cfg2.win 2).cut (grid2.coords t) ((dat2 V c).after 2 t) = _
  rw [after2_2]
  unfold out2_2
  rw [View.canon_unit_zero hz_mm2]
  simp only [View.ld_unit_zero (S := S4096x128) hz_mm2, View.ld_unit_zero (S := S128x128) hz_mm2]
  rw [mm_pay2]
  obtain ⟨e0, e1, e2, e3, e4, e5⟩ := idx_mm2 t
  funext j
  show ∑ k : Fin 128, nodes2 V c (((cfg2.win 0).blk t).view.emb (ix2 (j 0) k)) * weights2 V c (((cfg2.win 1).blk t).view.emb (ix2 k (j 1)))
     = ∑ k : Fin 128, nodes2 V c (ix2 ((((cfg2.win 2).blk t).view.emb j) 0) k) * weights2 V c (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]
  rfl

/-- An index of the output array is in point t's block iff each coordinate is in the block's range. -/
theorem mem_mm2 (t : Fin cfg2.N) (i : S32768x128.Idx) :
    i ∈ ((cfg2.win 2).blk t).view.set ↔ ∀ a : Fin 2, win2_2.index t a * S4096x128.size a ≤ (i a).val ∧ (i a).val < win2_2.index t a * S4096x128.size a + S4096x128.size a := by
  show i ∈ ((View.whole main_v57).slice (win2_2.rect t)).set ↔ _
  rw [View.set_slice_whole, Rect.mem_set_unit]
  exact Iff.rfl

/-- Row r of the output is in the block of point r / 4096. -/
theorem cover_mm2 (i : S32768x128.Idx) : ∃ t : Fin cfg2.N, (cfg2.win 2).flush t = true ∧ i ∈ ((cfg2.win 2).blk t).view.set := by
  have hi0 : (i 0).val < 32768 := (i 0).isLt
  have hi1 : (i 1).val < 128 := (i 1).isLt
  have hN : cfg2.N = 8 := N_2
  let t : Fin cfg2.N := ⟨(i 0).val / 4096, by rw [hN]; omega⟩
  obtain ⟨e0, e1, e2, e3, e4, e5⟩ := idx_mm2 t
  have e4' : win2_2.index t (0 : Fin 2) = (i 0).val / 4096 := e4
  refine ⟨t, flush2_2 t, ?_⟩
  rw [mem_mm2]
  intro a
  match a with
  | ⟨0, _⟩ => show win2_2.index t (0 : Fin 2) * 4096 ≤ (i 0).val ∧ (i 0).val < win2_2.index t (0 : Fin 2) * 4096 + 4096; omega
  | ⟨1, _⟩ => show win2_2.index t (1 : Fin 2) * 128 ≤ (i 1).val ∧ (i 1).val < win2_2.index t (1 : Fin 2) * 128 + 128; omega

/-- The output array after the region: the matrix product of the node array and the weight matrix. -/
theorem arr_mm2 (c : Dev nD) : (dat2 V c).arrAt 2 cfg2.N = Cert.LibMatmul.MM (V c main_v52) (V c main_v54) :=
  (dat2 V c).arrAt_eq_of_cover 2 _ (fun t _ => flushed_mm2 V c t) cover_mm2

/-- The node array is only read: it ends as the region found it. -/
theorem arr_in2 (c : Dev nD) : (dat2 V c).arrAt 0 cfg2.N = V c main_v52 :=
  funext fun i => (dat2 V c).arrAt_apply_of_forall_not_mem 0 cfg2.N i fun t _ hf => absurd hf (by rw [noflush2_0 t]; decide)

end Cert.Bridge

end
-- ==== Proof.Res3.lean ====
/-
  The residual region, read as a whole array: after its eight points the output array holds, at row r and
  column q, max((h(r, q) + a(r, q)) + b(0, q), 0), where h is the node array, a the aggregated array and b the
  bias row as the region finds them.  Point t loads rows 4096·t … 4096·t + 4095 of h and of a and the one bias
  row, and writes back the same rows of the output; the value at an entry depends only on the same entry of h
  and a and on the bias at its column, so each written block is the block of the whole-array function, and the
  eight blocks tile the array.
-/
import proofs.«113656_j75110388073003_1_alg».proof.Proof.Gen.KernelIdeal.Frame
import proofs.«113656_j75110388073003_1_alg».proof.Proof.Payloads

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz_res3 : (![0, 0] : Fin 2 → Nat) = fun _ => 0 := funext fun a => by fin_cases a <;> rfl

/-- The printed index maps over the grid: the node, aggregate and output windows sit at block row t, the bias
    window at block (0, 0). -/
theorem idx_res3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The three arrays the region reads, as the region finds them, as arrays of extended reals. -/
abbrev nodes3 (c : Dev nD) : S32768x128.Idx → EReal := V c main_v52
abbrev aggs3 (c : Dev nD) : S32768x128.Idx → EReal := V c main_v70
abbrev bias3 (c : Dev nD) : S1x128.Idx → EReal := V c main_v71

/-- What point t writes back is block t of the whole-array function. -/
theorem flushed_res3 (c : Dev nD) (t : Fin cfg3.N) :
    (dat3 V c).flushed 3 t = ((cfg3.win 3).blk t).view.read (Elt Ideal) (RES (nodes3 V c) (aggs3 V c) (bias3 V c)) := by
  show (cfg3.win 3).cut (grid3.coords t) ((dat3 V c).after 3 t) = _
  rw [after3_3]
  unfold out3_3
  rw [View.canon_unit_zero hz_res3]
  simp only [View.ld_unit_zero (S := S4096x128) hz_res3, View.ld_unit_zero (S := S1x128) hz_res3]
  obtain ⟨e0, e1, e2, e3, e4, e5, e6, e7⟩ := idx_res3 t
  funext j
  obtain ⟨p, q, rfl⟩ : ∃ (p : Fin 4096) (q : Fin 128), j = ix2 p q := ⟨j 0, j 1, eq_ix2 j⟩
  show k3_pay1 (F := Ideal) (iblk3 V c 2 t) (iblk3 V c 0 t) (iblk3 V c 1 t) (ix2 p q) = RES (nodes3 V c) (aggs3 V c) (bias3 V c) (((cfg3.win 3).blk t).view.emb (ix2 p q))
  rw [res_pay3]
  show max ((nodes3 V c (((cfg3.win 0).blk t).view.emb (ix2 p q)) + aggs3 V c (((cfg3.win 1).blk t).view.emb (ix2 p q))) + bias3 V c (((cfg3.win 2).blk t).view.emb (ix2 (0 : Fin 1) q))) 0
     = max ((nodes3 V c (((cfg3.win 3).blk t).view.emb (ix2 p q)) + aggs3 V c (((cfg3.win 3).blk t).view.emb (ix2 p q))) + bias3 V c (ix2 (0 : Fin 1) ((((cfg3.win 3).blk t).view.emb (ix2 p q)) 1))) 0
  have h0 : ((cfg3.win 0).blk t).view.emb (ix2 p q) = ((cfg3.win 3).blk t).view.emb (ix2 p q) := by
    funext a; apply Fin.ext
    match a with
    | ⟨0, _⟩ => show win3_0.index t (0 : Fin 2) * 4096 + 1 * p.val = win3_3.index t (0 : Fin 2) * 4096 + 1 * p.val; omega
    | ⟨1, _⟩ => show win3_0.index t (1 : Fin 2) * 128 + 1 * q.val = win3_3.index t (1 : Fin 2) * 128 + 1 * q.val; omega
  have h1 : ((cfg3.win 1).blk t).view.emb (ix2 p q) = ((cfg3.win 3).blk t).view.emb (ix2 p q) := by
    funext a; apply Fin.ext
    match a with
    | ⟨0, _⟩ => show win3_1.index t (0 : Fin 2) * 4096 + 1 * p.val = win3_3.index t (0 : Fin 2) * 4096 + 1 * p.val; omega
    | ⟨1, _⟩ => show win3_1.index t (1 : Fin 2) * 128 + 1 * q.val = win3_3.index t (1 : Fin 2) * 128 + 1 * q.val; omega
  have h2 : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  rw [h0, h1, h2]
  rfl

/-- An index of the output array is in point t's block iff each coordinate is in the block's range. -/
theorem mem_res3 (t : Fin cfg3.N) (i : S32768x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole main_v72).slice (win3_3.rect t)).set ↔ _
  rw [View.set_slice_whole, Rect.mem_set_unit]
  exact Iff.rfl

/-- Row r of the output is in the block of point r / 4096. -/
theorem cover_res3 (i : S32768x128.Idx) : ∃ t : Fin cfg3.N, (cfg3.win 3).flush t = true ∧ i ∈ ((cfg3.win 3).blk t).view.set := by
  have hi0 : (i 0).val < 32768 := (i 0).isLt
  have hi1 : (i 1).val < 128 := (i 1).isLt
  have hN : cfg3.N = 8 := N_3
  let t : Fin cfg3.N := ⟨(i 0).val / 4096, by rw [hN]; omega⟩
  obtain ⟨e0, e1, e2, e3, e4, e5, e6, e7⟩ := idx_res3 t
  have e6' : win3_3.index t (0 : Fin 2) = (i 0).val / 4096 := e6
  refine ⟨t, flush3_3 t, ?_⟩
  rw [mem_res3]
  intro a
  match a with
  | ⟨0, _⟩ => show win3_3.index t (0 : Fin 2) * 4096 ≤ (i 0).val ∧ (i 0).val < win3_3.index t (0 : Fin 2) * 4096 + 4096; omega
  | ⟨1, _⟩ => show win3_3.index t (1 : Fin 2) * 128 ≤ (i 1).val ∧ (i 1).val < win3_3.index t (1 : Fin 2) * 128 + 128; omega

/-- The output array after the region. -/
theorem arr_res3 (c : Dev nD) : (dat3 V c).arrAt 3 cfg3.N = RES (nodes3 V c) (aggs3 V c) (bias3 V c) :=
  (dat3 V c).arrAt_eq_of_cover 3 _ (fun t _ => flushed_res3 V c t) cover_res3

end Cert.Bridge

end
-- ==== Proof.Mm0.lean ====
/-
  The dense-transform region, read as a whole array: after its eight points the output array holds the matrix
  product of the node array (as the region finds it) with the layer's weight matrix.  Point t loads rows
  4096·t … 4096·t + 4095 of the node array and the whole weight matrix, and writes back the same rows of the
  output; row r of the product depends only on row r of the left factor, so each written block is the block of
  the whole product, and the eight blocks tile the array.  The node array and the weight matrix are only read.
-/
import proofs.«113656_j75110388073003_1_alg».proof.Proof.Gen.KernelIdeal.Frame
import proofs.«113656_j75110388073003_1_alg».proof.Proof.Payloads

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz_mm0 : (![0, 0] : Fin 2 → Nat) = fun _ => 0 := funext fun a => by fin_cases a <;> rfl

/-- The printed index maps over the grid: the node window and the output window sit at block row t, the weight
    window at block (0, 0). -/
theorem idx_mm0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem noflush0_0 : ∀ t : Fin cfg0.N, (cfg0.win 0).flush t = false :=
  (by decide +kernel : ∀ t : Fin grid0.N, win0_0.flush t = false)

/-- The node array and the weight matrix as the region finds them, as arrays of extended reals. -/
abbrev nodes0 (c : Dev nD) : S32768x128.Idx → EReal := V c main_v0
abbrev weights0 (c : Dev nD) : S128x128.Idx → EReal := V c main_v34

/-- What point t writes back is block t of the whole matrix product. -/
theorem flushed_mm0 (c : Dev nD) (t : Fin cfg0.N) :
    (dat0 V c).flushed 2 t = ((cfg0.win 2).blk t).view.read (Elt Ideal) (Cert.LibMatmul.MM (V c main_v0) (V c main_v34)) := by
  show (cfg0.win 2).cut (grid0.coords t) ((dat0 V c).after 2 t) = _
  rw [after0_2]
  unfold out0_2
  rw [View.canon_unit_zero hz_mm0]
  simp only [View.ld_unit_zero (S := S4096x128) hz_mm0, View.ld_unit_zero (S := S128x128) hz_mm0]
  rw [mm_pay]
  obtain ⟨e0, e1, e2, e3, e4, e5⟩ := idx_mm0 t
  funext j
  show ∑ k : Fin 128, nodes0 V c (((cfg0.win 0).blk t).view.emb (ix2 (j 0) k)) * weights0 V c (((cfg0.win 1).blk t).view.emb (ix2 k (j 1)))
     = ∑ k : Fin 128, nodes0 V c (ix2 ((((cfg0.win 2).blk t).view.emb j) 0) k) * weights0 V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]
  rfl

/-- An index of the output array is in point t's block iff each coordinate is in the block's range. -/
theorem mem_mm0 (t : Fin cfg0.N) (i : S32768x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v37).slice (win0_2.rect t)).set ↔ _
  rw [View.set_slice_whole, Rect.mem_set_unit]
  exact Iff.rfl

/-- Row r of the output is in the block of point r / 4096. -/
theorem cover_mm0 (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  have hN : cfg0.N = 8 := N_0
  let t : Fin cfg0.N := ⟨(i 0).val / 4096, by rw [hN]; omega⟩
  obtain ⟨e0, e1, e2, e3, e4, e5⟩ := idx_mm0 t
  have e4' : win0_2.index t (0 : Fin 2) = (i 0).val / 4096 := e4
  refine ⟨t, flush0_2 t, ?_⟩
  rw [mem_mm0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The output array after the region: the matrix product of the node array and the weight matrix. -/
theorem arr_mm0 (c : Dev nD) : (dat0 V c).arrAt 2 cfg0.N = Cert.LibMatmul.MM (V c main_v0) (V c main_v34) :=
  (dat0 V c).arrAt_eq_of_cover 2 _ (fun t _ => flushed_mm0 V c t) cover_mm0

/-- The node array is only read: it ends as the region found it. -/
theorem arr_in0 (c : Dev nD) : (dat0 V c).arrAt 0 cfg0.N = V c main_v0 :=
  funext fun i => (dat0 V c).arrAt_apply_of_forall_not_mem 0 cfg0.N i fun t _ hf => absurd hf (by rw [noflush0_0 t]; decide)

end Cert.Bridge

end
-- ==== Proof.Res1.lean ====
/-
  The residual region, read as a whole array: after its eight points the output array holds, at row r and
  column q, max((h(r, q) + a(r, q)) + b(0, q), 0), where h is the node array, a the aggregated array and b the
  bias row as the region finds them.  Point t loads rows 4096·t … 4096·t + 4095 of h and of a and the one bias
  row, and writes back the same rows of the output; the value at an entry depends only on the same entry of h
  and a and on the bias at its column, so each written block is the block of the whole-array function, and the
  eight blocks tile the array.
-/
import proofs.«113656_j75110388073003_1_alg».proof.Proof.Gen.KernelIdeal.Frame
import proofs.«113656_j75110388073003_1_alg».proof.Proof.Payloads

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz_res1 : (![0, 0] : Fin 2 → Nat) = fun _ => 0 := funext fun a => by fin_cases a <;> rfl

/-- The printed index maps over the grid: the node, aggregate and output windows sit at block row t, the bias
    window at block (0, 0). -/
theorem idx_res1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three arrays the region reads, as the region finds them, as arrays of extended reals. -/
abbrev nodes1 (c : Dev nD) : S32768x128.Idx → EReal := V c main_v0
abbrev aggs1 (c : Dev nD) : S32768x128.Idx → EReal := V c main_v50
abbrev bias1 (c : Dev nD) : S1x128.Idx → EReal := V c main_v51

/-- What point t writes back is block t of the whole-array function. -/
theorem flushed_res1 (c : Dev nD) (t : Fin cfg1.N) :
    (dat1 V c).flushed 3 t = ((cfg1.win 3).blk t).view.read (Elt Ideal) (RES (nodes1 V c) (aggs1 V c) (bias1 V c)) := by
  show (cfg1.win 3).cut (grid1.coords t) ((dat1 V c).after 3 t) = _
  rw [after1_3]
  unfold out1_3
  rw [View.canon_unit_zero hz_res1]
  simp only [View.ld_unit_zero (S := S4096x128) hz_res1, View.ld_unit_zero (S := S1x128) hz_res1]
  obtain ⟨e0, e1, e2, e3, e4, e5, e6, e7⟩ := idx_res1 t
  funext j
  obtain ⟨p, q, rfl⟩ : ∃ (p : Fin 4096) (q : Fin 128), j = ix2 p q := ⟨j 0, j 1, eq_ix2 j⟩
  show k1_pay1 (F := Ideal) (iblk1 V c 2 t) (iblk1 V c 0 t) (iblk1 V c 1 t) (ix2 p q) = RES (nodes1 V c) (aggs1 V c) (bias1 V c) (((cfg1.win 3).blk t).view.emb (ix2 p q))
  rw [res_pay]
  show max ((nodes1 V c (((cfg1.win 0).blk t).view.emb (ix2 p q)) + aggs1 V c (((cfg1.win 1).blk t).view.emb (ix2 p q))) + bias1 V c (((cfg1.win 2).blk t).view.emb (ix2 (0 : Fin 1) q))) 0
     = max ((nodes1 V c (((cfg1.win 3).blk t).view.emb (ix2 p q)) + aggs1 V c (((cfg1.win 3).blk t).view.emb (ix2 p q))) + bias1 V c (ix2 (0 : Fin 1) ((((cfg1.win 3).blk t).view.emb (ix2 p q)) 1))) 0
  have h0 : ((cfg1.win 0).blk t).view.emb (ix2 p q) = ((cfg1.win 3).blk t).view.emb (ix2 p q) := by
    funext a; apply Fin.ext
    match a with
    | ⟨0, _⟩ => show win1_0.index t (0 : Fin 2) * 4096 + 1 * p.val = win1_3.index t (0 : Fin 2) * 4096 + 1 * p.val; omega
    | ⟨1, _⟩ => show win1_0.index t (1 : Fin 2) * 128 + 1 * q.val = win1_3.index t (1 : Fin 2) * 128 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 4096 + 1 * p.val = win1_3.index t (0 : Fin 2) * 4096 + 1 * p.val; omega
    | ⟨1, _⟩ => show win1_1.index t (1 : Fin 2) * 128 + 1 * q.val = win1_3.index t (1 : Fin 2) * 128 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

/-- An index of the output array is in point t's block iff each coordinate is in the block's range. -/
theorem mem_res1 (t : Fin cfg1.N) (i : S32768x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v52).slice (win1_3.rect t)).set ↔ _
  rw [View.set_slice_whole, Rect.mem_set_unit]
  exact Iff.rfl

/-- Row r of the output is in the block of point r / 4096. -/
theorem cover_res1 (i : S32768x128.Idx) : ∃ t : Fin cfg1.N, (cfg1.win 3).flush t = true ∧ i ∈ ((cfg1.win 3).blk t).view.set := by
  have hi0 : (i 0).val < 32768 := (i 0).isLt
  have hi1 : (i 1).val < 128 := (i 1).isLt
  have hN : cfg1.N = 8 := N_1
  let t : Fin cfg1.N := ⟨(i 0).val / 4096, by rw [hN]; omega⟩
  obtain ⟨e0, e1, e2, e3, e4, e5, e6, e7⟩ := idx_res1 t
  have e6' : win1_3.index t (0 : Fin 2) = (i 0).val / 4096 := e6
  refine ⟨t, flush1_3 t, ?_⟩
  rw [mem_res1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- The output array after the region. -/
theorem arr_res1 (c : Dev nD) : (dat1 V c).arrAt 3 cfg1.N = RES (nodes1 V c) (aggs1 V c) (bias1 V c) :=
  (dat1 V c).arrAt_eq_of_cover 3 _ (fun t _ => flushed_res1 V c t) cover_res1

end Cert.Bridge

end
-- ==== Proof.Layer0.lean ====
/-
  Layer 1 of the kernel program, read off the run's boundaries.  The dense-transform region leaves the matrix
  product of the layer's input with its weight matrix; the host operations between the two regions gather the
  product's rows at the edges' sources, scale them by the edges' coefficients and add them up at the targets, and
  reshape the bias to one row; the residual region leaves max((h + a) + b, 0).  With the law that joins the two
  programs' layers this is the specification's layer applied to the layer's input.
-/
import proofs.«113656_j75110388073003_1_alg».proof.Proof.Gen.KernelIdeal.Frame
import proofs.«113656_j75110388073003_1_alg».proof.Proof.Spec
import proofs.«113656_j75110388073003_1_alg».proof.Proof.Entry
import proofs.«113656_j75110388073003_1_alg».proof.Proof.Pass
import proofs.«113656_j75110388073003_1_alg».proof.Proof.Mm0
import proofs.«113656_j75110388073003_1_alg».proof.Proof.Res1
import proofs.«113656_j75110388073003_1_alg».proof.Proof.LayerLaw
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## What the dense-transform region is entered with -/

theorem pre0_h : W3 m ρ c (Proc.devRef .tc main_v0) = (Cert.Spec.h0 (F := Ideal) (m ((c.tc : Thread nD τ).loc main_arg0))) := at3_v0 m ρ c
theorem pre0_W : W3 m ρ c (Proc.devRef .tc main_v34) = (Cert.Spec.W0 (F := Ideal) (m ((c.tc : Thread nD τ).loc main_arg2))) := at3_v34 m ρ c
theorem pre0_b : W3 m ρ c (Proc.devRef .tc main_v36) = (Cert.Spec.b0 (F := Ideal) (m ((c.tc : Thread nD τ).loc main_arg3))) := at3_v36 m ρ c

/-! ## The dense-transform region -/

/-- The region's output array: the matrix product. -/
theorem mm0 : W4 m ρ c (Proc.devRef .tc main_v37) = Cert.LibMatmul.MM (Cert.Spec.h0 (F := Ideal) (m ((c.tc : Thread nD τ).loc main_arg0))) (Cert.Spec.W0 (F := Ideal) (m ((c.tc : Thread nD τ).loc main_arg2))) := by
  refine (show W4 m ρ c (Proc.devRef .tc main_v37) = _ from W4_arr m ρ c 2).trans ((arr_mm0 (V3 m ρ) c).trans ?_)
  show Cert.LibMatmul.MM (W3 m ρ c (Proc.devRef .tc main_v0)) (W3 m ρ c (Proc.devRef .tc main_v34)) = _
  rw [pre0_h m ρ c, pre0_W m ρ c]

/-- The layer's input is only read by the region. -/
theorem mmin0 : W4 m ρ c (Proc.devRef .tc main_v0) = (Cert.Spec.h0 (F := Ideal) (m ((c.tc : Thread nD τ).loc main_arg0))) :=
  (show W4 m ρ c (Proc.devRef .tc main_v0) = _ from W4_arr m ρ c 0).trans ((arr_in0 (V3 m ρ) c).trans (pre0_h m ρ c))

/-- The bias vector is not among the region's arrays. -/
theorem mmb0 : W4 m ρ c (Proc.devRef .tc main_v36) = (Cert.Spec.b0 (F := Ideal) (m ((c.tc : Thread nD τ).loc main_arg3))) :=
  (W4_of_ne m ρ c main_v36 (by decide)).trans (pre0_b m ρ c)

/-! ## The host operations between the two regions -/

set_option maxHeartbeats 1000000 in
/-- The aggregated array. -/
theorem agg0 : W5 m ρ c (Proc.devRef .tc main_v50) = Cert.Spec.agg (F := Ideal) (m ((c.tc : Thread nD τ).loc main_arg1)) (Cert.LibMatmul.MM (Cert.Spec.h0 (F := Ideal) (m ((c.tc : Thread nD τ).loc main_arg0))) (Cert.Spec.W0 (F := Ideal) (m ((c.tc : Thread nD τ).loc main_arg2)))) := by
  show StableHlo.after hostOps1 (W4 m ρ c) (Proc.devRef .tc main_v50) = _
  after_results
  rw [mm0 m ρ c, at4_v4 m ρ c, at4_v7 m ρ c, at4_v32 m ρ c]
  rfl

/-- The bias as one row. -/
theorem brow0 : W5 m ρ c (Proc.devRef .tc main_v51) = shapeCast S1x128 (Cert.Spec.b0 (F := Ideal) (m ((c.tc : Thread nD τ).loc main_arg3))) shapeCasts_S128_S1x128 := by
  show StableHlo.after hostOps1 (W4 m ρ c) (Proc.devRef .tc main_v51) = _
  after_results
  rw [mmb0 m ρ c]
  rfl

/-- The layer's input is not written. -/
theorem hmid0 : W5 m ρ c (Proc.devRef .tc main_v0) = (Cert.Spec.h0 (F := Ideal) (m ((c.tc : Thread nD τ).loc main_arg0))) := by
  show StableHlo.after hostOps1 (W4 m ρ c) (Proc.devRef .tc main_v0) = _
  after_results
  exact mmin0 m ρ c

/-! ## The residual region -/

/-- The layer's output. -/
theorem out0 : W6 m ρ c (Proc.devRef .tc main_v52) = (Cert.Spec.h1 (F := Ideal) (m ((c.tc : Thread nD τ).loc main_arg0)) (m ((c.tc : Thread nD τ).loc main_arg1)) (m ((c.tc : Thread nD τ).loc main_arg2)) (m ((c.tc : Thread nD τ).loc main_arg3))) := by
  refine (show W6 m ρ c (Proc.devRef .tc main_v52) = _ from W6_arr m ρ c 3).trans ((arr_res1 (V5 m ρ) c).trans ?_)
  show RES (W5 m ρ c (Proc.devRef .tc main_v0)) (W5 m ρ c (Proc.devRef .tc main_v50)) (W5 m ρ c (Proc.devRef .tc main_v51)) = _
  rw [hmid0 m ρ c, agg0 m ρ c, brow0 m ρ c]
  exact res_layer _ _ _ _ _

end Cert.Bridge

end
-- ==== Proof.Layer1.lean ====
/-
  Layer 2 of the kernel program, read off the run's boundaries.  The dense-transform region leaves the matrix
  product of the layer's input with its weight matrix; the host operations between the two regions gather the
  product's rows at the edges' sources, scale them by the edges' coefficients and add them up at the targets, and
  reshape the bias to one row; the residual region leaves max((h + a) + b, 0).  With the law that joins the two
  programs' layers this is the specification's layer applied to the layer's input.
-/
import proofs.«113656_j75110388073003_1_alg».proof.Proof.Gen.KernelIdeal.Frame
import proofs.«113656_j75110388073003_1_alg».proof.Proof.Spec
import proofs.«113656_j75110388073003_1_alg».proof.Proof.Entry
import proofs.«113656_j75110388073003_1_alg».proof.Proof.Pass
import proofs.«113656_j75110388073003_1_alg».proof.Proof.Mm2
import proofs.«113656_j75110388073003_1_alg».proof.Proof.Res3
import proofs.«113656_j75110388073003_1_alg».proof.Proof.LayerLaw
import proofs.«113656_j75110388073003_1_alg».proof.Proof.Layer0
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## What the dense-transform region is entered with -/

theorem pre1_h : W7 m ρ c (Proc.devRef .tc main_v52) = (Cert.Spec.h1 (F := Ideal) (m ((c.tc : Thread nD τ).loc main_arg0)) (m ((c.tc : Thread nD τ).loc main_arg1)) (m ((c.tc : Thread nD τ).loc main_arg2)) (m ((c.tc : Thread nD τ).loc main_arg3))) := by
  show StableHlo.after hostOps2 (W6 m ρ c) (Proc.devRef .tc main_v52) = _
  after_results
  exact out0 m ρ c
theorem pre1_W : W7 m ρ c (Proc.devRef .tc main_v54) = (Cert.Spec.W1 (F := Ideal) (m ((c.tc : Thread nD τ).loc main_arg2))) := by
  show StableHlo.after hostOps2 (W6 m ρ c) (Proc.devRef .tc main_v54) = _
  after_results
  rw [at6_arg2 m ρ c]
  rfl
theorem pre1_b : W7 m ρ c (Proc.devRef .tc main_v56) = (Cert.Spec.b1 (F := Ideal) (m ((c.tc : Thread nD τ).loc main_arg3))) := by
  show StableHlo.after hostOps2 (W6 m ρ c) (Proc.devRef .tc main_v56) = _
  after_results
  rw [at6_arg3 m ρ c]
  rfl

/-! ## The dense-transform region -/

/-- The region's output array: the matrix product. -/
theorem mm1 : W8 m ρ c (Proc.devRef .tc main_v57) = Cert.LibMatmul.MM (Cert.Spec.h1 (F := Ideal) (m ((c.tc : Thread nD τ).loc main_arg0)) (m ((c.tc : Thread nD τ).loc main_arg1)) (m ((c.tc : Thread nD τ).loc main_arg2)) (m ((c.tc : Thread nD τ).loc main_arg3))) (Cert.Spec.W1 (F := Ideal) (m ((c.tc : Thread nD τ).loc main_arg2))) := by
  refine (show W8 m ρ c (Proc.devRef .tc main_v57) = _ from W8_arr m ρ c 2).trans ((arr_mm2 (V7 m ρ) c).trans ?_)
  show Cert.LibMatmul.MM (W7 m ρ c (Proc.devRef .tc main_v52)) (W7 m ρ c (Proc.devRef .tc main_v54)) = _
  rw [pre1_h m ρ c, pre1_W m ρ c]

/-- The layer's input is only read by the region. -/
theorem mmin1 : W8 m ρ c (Proc.devRef .tc main_v52) = (Cert.Spec.h1 (F := Ideal) (m ((c.tc : Thread nD τ).loc main_arg0)) (m ((c.tc : Thread nD τ).loc main_arg1)) (m ((c.tc : Thread nD τ).loc main_arg2)) (m ((c.tc : Thread nD τ).loc main_arg3))) :=
  (show W8 m ρ c (Proc.devRef .tc main_v52) = _ from W8_arr m ρ c 0).trans ((arr_in2 (V7 m ρ) c).trans (pre1_h m ρ c))

/-- The bias vector is not among the region's arrays. -/
theorem mmb1 : W8 m ρ c (Proc.devRef .tc main_v56) = (Cert.Spec.b1 (F := Ideal) (m ((c.tc : Thread nD τ).loc main_arg3))) :=
  (W8_of_ne m ρ c main_v56 (by decide)).trans (pre1_b m ρ c)

/-! ## The host operations between the two regions -/

set_option maxHeartbeats 1000000 in
/-- The aggregated array. -/
theorem agg1 : W9 m ρ c (Proc.devRef .tc main_v70) = Cert.Spec.agg (F := Ideal) (m ((c.tc : Thread nD τ).loc main_arg1)) (Cert.LibMatmul.MM (Cert.Spec.h1 (F := Ideal) (m ((c.tc : Thread nD τ).loc main_arg0)) (m ((c.tc : Thread nD τ).loc main_arg1)) (m ((c.tc : Thread nD τ).loc main_arg2)) (m ((c.tc : Thread nD τ).loc main_arg3))) (Cert.Spec.W1 (F := Ideal) (m ((c.tc : Thread nD τ).loc main_arg2)))) := by
  show StableHlo.after hostOps3 (W8 m ρ c) (Proc.devRef .tc main_v70) = _
  after_results
  rw [mm1 m ρ c, at8_v4 m ρ c, at8_v7 m ρ c, at8_v32 m ρ c]
  rfl

/-- The bias as one row. -/
theorem brow1 : W9 m ρ c (Proc.devRef .tc main_v71) = shapeCast S1x128 (Cert.Spec.b1 (F := Ideal) (m ((c.tc : Thread nD τ).loc main_arg3))) shapeCasts_S128_S1x128 := by
  show StableHlo.after hostOps3 (W8 m ρ c) (Proc.devRef .tc main_v71) = _
  after_results
  rw [mmb1 m ρ c]
  rfl

/-- The layer's input is not written. -/
theorem hmid1 : W9 m ρ c (Proc.devRef .tc main_v52) = (Cert.Spec.h1 (F := Ideal) (m ((c.tc : Thread nD τ).loc main_arg0)) (m ((c.tc : Thread nD τ).loc main_arg1)) (m ((c.tc : Thread nD τ).loc main_arg2)) (m ((c.tc : Thread nD τ).loc main_arg3))) := by
  show StableHlo.after hostOps3 (W8 m ρ c) (Proc.devRef .tc main_v52) = _
  after_results
  exact mmin1 m ρ c

/-! ## The residual region -/

/-- The layer's output. -/
theorem out1 : W10 m ρ c (Proc.devRef .tc main_v72) = (Cert.Spec.h2 (F := Ideal) (m ((c.tc : Thread nD τ).loc main_arg0)) (m ((c.tc : Thread nD τ).loc main_arg1)) (m ((c.tc : Thread nD τ).loc main_arg2)) (m ((c.tc : Thread nD τ).loc main_arg3))) := by
  refine (show W10 m ρ c (Proc.devRef .tc main_v72) = _ from W10_arr m ρ c 3).trans ((arr_res3 (V9 m ρ) c).trans ?_)
  show RES (W9 m ρ c (Proc.devRef .tc main_v52)) (W9 m ρ c (Proc.devRef .tc main_v70)) (W9 m ρ c (Proc.devRef .tc main_v71)) = _
  rw [hmid1 m ρ c, agg1 m ρ c, brow1 m ρ c]
  exact res_layer _ _ _ _ _

end Cert.Bridge

end
-- ==== Proof.Layer2.lean ====
/-
  Layer 3 of the kernel program, read off the run's boundaries.  The dense-transform region leaves the matrix
  product of the layer's input with its weight matrix; the host operations between the two regions gather the
  product's rows at the edges' sources, scale them by the edges' coefficients and add them up at the targets, and
  reshape the bias to one row; the residual region leaves max((h + a) + b, 0).  With the law that joins the two
  programs' layers this is the specification's layer applied to the layer's input.
-/
import proofs.«113656_j75110388073003_1_alg».proof.Proof.Gen.KernelIdeal.Frame
import proofs.«113656_j75110388073003_1_alg».proof.Proof.Spec
import proofs.«113656_j75110388073003_1_alg».proof.Proof.Entry
import proofs.«113656_j75110388073003_1_alg».proof.Proof.Pass
import proofs.«113656_j75110388073003_1_alg».proof.Proof.Mm4
import proofs.«113656_j75110388073003_1_alg».proof.Proof.Res5
import proofs.«113656_j75110388073003_1_alg».proof.Proof.LayerLaw
import proofs.«113656_j75110388073003_1_alg».proof.Proof.Layer1
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## What the dense-transform region is entered with -/

theorem pre2_h : W11 m ρ c (Proc.devRef .tc main_v72) = (Cert.Spec.h2 (F := Ideal) (m ((c.tc : Thread nD τ).loc main_arg0)) (m ((c.tc : Thread nD τ).loc main_arg1)) (m ((c.tc : Thread nD τ).loc main_arg2)) (m ((c.tc : Thread nD τ).loc main_arg3))) := by
  show StableHlo.after hostOps4 (W10 m ρ c) (Proc.devRef .tc main_v72) = _
  after_results
  exact out1 m ρ c
theorem pre2_W : W11 m ρ c (Proc.devRef .tc main_v74) = (Cert.Spec.W2 (F := Ideal) (m ((c.tc : Thread nD τ).loc main_arg2))) := by
  show StableHlo.after hostOps4 (W10 m ρ c) (Proc.devRef .tc main_v74) = _
  after_results
  rw [at10_arg2 m ρ c]
  rfl
theorem pre2_b : W11 m ρ c (Proc.devRef .tc main_v76) = (Cert.Spec.b2 (F := Ideal) (m ((c.tc : Thread nD τ).loc main_arg3))) := by
  show StableHlo.after hostOps4 (W10 m ρ c) (Proc.devRef .tc main_v76) = _
  after_results
  rw [at10_arg3 m ρ c]
  rfl

/-! ## The dense-transform region -/

/-- The region's output array: the matrix product. -/
theorem mm2 : W12 m ρ c (Proc.devRef .tc main_v77) = Cert.LibMatmul.MM (Cert.Spec.h2 (F := Ideal) (m ((c.tc : Thread nD τ).loc main_arg0)) (m ((c.tc : Thread nD τ).loc main_arg1)) (m ((c.tc : Thread nD τ).loc main_arg2)) (m ((c.tc : Thread nD τ).loc main_arg3))) (Cert.Spec.W2 (F := Ideal) (m ((c.tc : Thread nD τ).loc main_arg2))) := by
  refine (show W12 m ρ c (Proc.devRef .tc main_v77) = _ from W12_arr m ρ c 2).trans ((arr_mm4 (V11 m ρ) c).trans ?_)
  show Cert.LibMatmul.MM (W11 m ρ c (Proc.devRef .tc main_v72)) (W11 m ρ c (Proc.devRef .tc main_v74)) = _
  rw [pre2_h m ρ c, pre2_W m ρ c]

/-- The layer's input is only read by the region. -/
theorem mmin2 : W12 m ρ c (Proc.devRef .tc main_v72) = (Cert.Spec.h2 (F := Ideal) (m ((c.tc : Thread nD τ).loc main_arg0)) (m ((c.tc : Thread nD τ).loc main_arg1)) (m ((c.tc : Thread nD τ).loc main_arg2)) (m ((c.tc : Thread nD τ).loc main_arg3))) :=
  (show W12 m ρ c (Proc.devRef .tc main_v72) = _ from W12_arr m ρ c 0).trans ((arr_in4 (V11 m ρ) c).trans (pre2_h m ρ c))

/-- The bias vector is not among the region's arrays. -/
theorem mmb2 : W12 m ρ c (Proc.devRef .tc main_v76) = (Cert.Spec.b2 (F := Ideal) (m ((c.tc : Thread nD τ).loc main_arg3))) :=
  (W12_of_ne m ρ c main_v76 (by decide)).trans (pre2_b m ρ c)

/-! ## The host operations between the two regions -/

set_option maxHeartbeats 1000000 in
/-- The aggregated array. -/
theorem agg2 : W13 m ρ c (Proc.devRef .tc main_v90) = Cert.Spec.agg (F := Ideal) (m ((c.tc : Thread nD τ).loc main_arg1)) (Cert.LibMatmul.MM (Cert.Spec.h2 (F := Ideal) (m ((c.tc : Thread nD τ).loc main_arg0)) (m ((c.tc : Thread nD τ).loc main_arg1)) (m ((c.tc : Thread nD τ).loc main_arg2)) (m ((c.tc : Thread nD τ).loc main_arg3))) (Cert.Spec.W2 (F := Ideal) (m ((c.tc : Thread nD τ).loc main_arg2)))) := by
  show StableHlo.after hostOps5 (W12 m ρ c) (Proc.devRef .tc main_v90) = _
  after_results
  rw [mm2 m ρ c, at12_v4 m ρ c, at12_v7 m ρ c, at12_v32 m ρ c]
  rfl

/-- The bias as one row. -/
theorem brow2 : W13 m ρ c (Proc.devRef .tc main_v91) = shapeCast S1x128 (Cert.Spec.b2 (F := Ideal) (m ((c.tc : Thread nD τ).loc main_arg3))) shapeCasts_S128_S1x128 := by
  show StableHlo.after hostOps5 (W12 m ρ c) (Proc.devRef .tc main_v91) = _
  after_results
  rw [mmb2 m ρ c]
  rfl

/-- The layer's input is not written. -/
theorem hmid2 : W13 m ρ c (Proc.devRef .tc main_v72) = (Cert.Spec.h2 (F := Ideal) (m ((c.tc : Thread nD τ).loc main_arg0)) (m ((c.tc : Thread nD τ).loc main_arg1)) (m ((c.tc : Thread nD τ).loc main_arg2)) (m ((c.tc : Thread nD τ).loc main_arg3))) := by
  show StableHlo.after hostOps5 (W12 m ρ c) (Proc.devRef .tc main_v72) = _
  after_results
  exact mmin2 m ρ c

/-! ## The residual region -/

/-- The layer's output. -/
theorem out2 : W14 m ρ c (Proc.devRef .tc main_v92) = (Cert.Spec.h3 (F := Ideal) (m ((c.tc : Thread nD τ).loc main_arg0)) (m ((c.tc : Thread nD τ).loc main_arg1)) (m ((c.tc : Thread nD τ).loc main_arg2)) (m ((c.tc : Thread nD τ).loc main_arg3))) := by
  refine (show W14 m ρ c (Proc.devRef .tc main_v92) = _ from W14_arr m ρ c 3).trans ((arr_res5 (V13 m ρ) c).trans ?_)
  show RES (W13 m ρ c (Proc.devRef .tc main_v72)) (W13 m ρ c (Proc.devRef .tc main_v90)) (W13 m ρ c (Proc.devRef .tc main_v91)) = _
  rw [hmid2 m ρ c, agg2 m ρ c, brow2 m ρ c]
  exact res_layer _ _ _ _ _

end Cert.Bridge

end
-- ==== Proof.Final.lean ====
/-
  The kernel program's result.  After the third layer one host operation reshapes the node array back to
  [8, 4096, 128]; the result buffer at the last boundary is therefore the specification's result: the three
  layers applied in turn to the reshaped node array, reshaped back.
-/
import proofs.«113656_j75110388073003_1_alg».proof.Proof.Gen.KernelIdeal.Frame
import proofs.«113656_j75110388073003_1_alg».proof.Proof.Spec
import proofs.«113656_j75110388073003_1_alg».proof.Proof.Layer2
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem result_eq : W15 m ρ c (Proc.devRef .tc main_v93) = Cert.Spec.result (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps6 (W14 m ρ c) (Proc.devRef .tc main_v93) = _
  after_results
  rw [out2 m ρ c]
  rfl

end Cert.Bridge

end
-- ==== Proof.lean ====
/-
  The certificate: a stack of three graph-convolution layers with residual connections, computed by a program of
  six kernel regions (a dense transform and a residual step per layer) among host operations, against the plain
  host program.

  Both programs do the same edge bookkeeping on the host: the edge list with a self loop per node, each node's
  degree, its weight 1/sqrt(degree), each edge's coefficient.  A layer of the kernel program multiplies the node
  array by the weight matrix block by block (eight blocks of 4096 rows, the operands cast to bf16, which is the
  identity on extended reals, into a zero accumulator), aggregates the product over the edges on the host, and
  computes max((h + a) + b, 0) block by block; a layer of the reference multiplies with one host matrix product
  and computes max(h + (a + b), 0).  Row r of a matrix product depends only on row r of the left factor, so the
  eight written blocks are the blocks of the whole product and tile it; both products are the same sum over the
  contraction index; and addition of extended reals is associative, so the two groupings of the three summands
  agree at every entry, infinite ones included.  No finiteness of the inputs is used.

  The three frames: the two kernel programs' are the generated frames; the reference's is its run with the result
  dropped.  The ideal pass rewrote nothing, so the kernel program's idealization is its own text read at the ideal
  values.
-/
import proofs.«113656_j75110388073003_1_alg».proof.Defs
import proofs.«113656_j75110388073003_1_alg».proof.Proof.Gen.Kernel
import proofs.«113656_j75110388073003_1_alg».proof.Proof.Gen.Kernel.Frame
import proofs.«113656_j75110388073003_1_alg».proof.Proof.Gen.KernelIdeal
import proofs.«113656_j75110388073003_1_alg».proof.Proof.Gen.KernelIdeal.Frame
import proofs.«113656_j75110388073003_1_alg».proof.Proof.Gen.ReferenceIdeal
import proofs.«113656_j75110388073003_1_alg».proof.Proof.Gen.Pre_finite_inputs
import proofs.«113656_j75110388073003_1_alg».proof.Proof.RefRun
import proofs.«113656_j75110388073003_1_alg».proof.Proof.KRun
import proofs.«113656_j75110388073003_1_alg».proof.Proof.Spec
import proofs.«113656_j75110388073003_1_alg».proof.Proof.Final
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the specification's function of the argument arrays. -/
theorem algebraic : Cert.algebraic_KernelIdeal_ReferenceIdeal := by
  intro m ρ m' ρ' _ hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.Bridge.result_eq m ρ c), (h c).2⟩)
      (Cert.KernelIdeal.Gen.run_result m ρ)
  · refine (θ_run Cert.ReferenceIdeal.defs _ _).mono (fun _ h c => ⟨(h c).1.trans ?_, (h c).2⟩)
      (Cert.ReferenceIdeal.ValueP.run (F := Ideal) m' ρ')
    rw [Cert.Spec.ref_result, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
